-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S32768x128 : Shape := ⟨2, ![32768, 128]⟩
abbrev S1024x32768 : Shape := ⟨2, ![1024, 32768]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_

variable [Facts]

def fn {F : FTy → Type} [FloatOps F] (main_arg0 : FVec F S1024x128 .f32) (main_arg1 : FVec F S32768x128 .f32) (main_arg2 : IVec S1024x32768 32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S32768x128 .f32 := Host.absf main_arg1
  let main_cst_0 : FVec F S_ .f32 := constant S_ .f32 0x7F800000#32
  let main_v5 : FVec F S32768x128 .f32 := broadcastInDim S32768x128 ![] bcast_S_S32768x128 main_cst_0
  let main_v6 : IVec S32768x128 1 := cmpf .olt main_v4 main_v5
  let main_c_1 : IVec S_ 1 := constantI S_ 1 1#1
  let main_v7 : IVec S_ 1 := (fun x v => Host.reduce IntOp.andi x v reducesTo_S32768x128_S_d0_1 h_S_) main_v6 main_c_1
  let main_v8 : IVec S_ 1 := andi main_v3 main_v7
  main_v8
-- ==== Kernel.lean ====
abbrev S1024x128 : Shape := ⟨2, ![1024, 128]⟩
abbrev S32768x128 : Shape := ⟨2, ![32768, 128]⟩
abbrev S1024x32768 : Shape := ⟨2, ![1024, 32768]⟩
abbrev S1024x1 : Shape := ⟨2, ![1024, 1]⟩
abbrev S1024x1024 : Shape := ⟨2, ![1024, 1024]⟩
abbrev S1024 : Shape := ⟨1, ![1024]⟩
abbrev S128x1024 : Shape := ⟨2, ![128, 1024]⟩
abbrev S1x1024 : Shape := ⟨2, ![1, 1024]⟩

abbrev nBuf : Space → Nat
  | .hbm => 5
  | .vmem => 15
  | .smem => 0
  | _ => 0

abbrev bufTy : (tb : Table) → Fin (tcTables nBuf tb) → BufTy
  | .hbm, ⟨0, _⟩ => ⟨S1024x128, .f32⟩
  | .hbm, ⟨1, _⟩ => ⟨S32768x128, .f32⟩
  | .hbm, ⟨2, _⟩ => ⟨S1024x32768, .i32⟩
  | .hbm, ⟨3, _⟩ => ⟨S1024x1, .f32⟩
  | .hbm, ⟨4, _⟩ => ⟨S1024x32768, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x1024, .i32⟩
  | .local _ .vmem, ⟨4, _⟩ => ⟨S1024x1024, .i32⟩
  | .local _ .vmem, ⟨5, _⟩ => ⟨S1024x1, .f32⟩
  | .local _ .vmem, ⟨6, _⟩ => ⟨S1024x1, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .i32⟩
  | .local _ .vmem, ⟨11, _⟩ => ⟨S1024x1024, .i32⟩
  | .local _ .vmem, ⟨12, _⟩ => ⟨S1024x1, .f32⟩
  | .local _ .vmem, ⟨13, _⟩ => ⟨S1024x1024, .f32⟩
  | .local _ .vmem, ⟨14, _⟩ => ⟨S1024x1024, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v39 : BitVec 1 := Scalar.cmpi .eq arg0 c31_i32
  let v40 : BitVec 32 := Scalar.extui v39
  let c0_i32_19 : BitVec 32 := 0#32
  let v41 : BitVec 1 := Scalar.cmpi .ne v40 c0_i32_19
  v41

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  transposes_S1024x128_p1_0_S128x1024 : S1024x128.Transposes [1, 0] S128x1024
  reduces_S128x1024_S1024 : S128x1024.Reduces [0] S1024
  shapeCasts_S1024_S1x1024 : S1024.ShapeCasts S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S32768x128.size a
  hwx0_1 : ∀ i : grid0.Coords, EltTy.bits .f32 = 32 ∨ (Rect.block (s := S32768x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x32768.size a
  hwx0_2 : ∀ i : grid0.Coords, EltTy.bits .i32 = 32 ∨ (Rect.block (s := S1024x32768) S1024x1024.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S1024x1.size a
  hwx0_3 : ∀ i : grid0.Coords, EltTy.bits .f32 = 32 ∨ (Rect.block (s := S1024x1) S1024x1.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S1024x128.size a
  hwx1_0 : ∀ i : grid1.Coords, EltTy.bits .f32 = 32 ∨ (Rect.block (s := S1024x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S32768x128.size a
  hwx1_1 : ∀ i : grid1.Coords, EltTy.bits .f32 = 32 ∨ (Rect.block (s := S32768x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x32768.size a
  hwx1_2 : ∀ i : grid1.Coords, EltTy.bits .i32 = 32 ∨ (Rect.block (s := S1024x32768) S1024x1024.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S1024x1.size a
  hwx1_3 : ∀ i : grid1.Coords, EltTy.bits .f32 = 32 ∨ (Rect.block (s := S1024x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x32768.size a
  hwx1_4 : ∀ i : grid1.Coords, EltTy.bits .f32 = 32 ∨ (Rect.block (s := S1024x32768) S1024x1024.size (cc1_transform_4 i) (hinb1_4 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1024x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1024x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1024x128 : Shape := ⟨2, ![1024, 128]⟩
abbrev S32768x128 : Shape := ⟨2, ![32768, 128]⟩
abbrev S1024x32768 : Shape := ⟨2, ![1024, 32768]⟩
abbrev S_ : Shape := ⟨0, ![]⟩
abbrev S1024 : Shape := ⟨1, ![1024]⟩
abbrev S1024x1 : Shape := ⟨2, ![1024, 1]⟩
abbrev S32768 : Shape := ⟨1, ![32768]⟩
abbrev S1x32768 : Shape := ⟨2, ![1, 32768]⟩

abbrev nBuf : Space → Nat
  | .hbm => 44
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S32768x128, .f32⟩
  | .hbm, ⟨2, _⟩ => ⟨S1024x32768, .i32⟩
  | .hbm, ⟨3, _⟩ => ⟨S1024x128, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S32768x128, .f32⟩
  | .hbm, ⟨8, _⟩ => ⟨S_, .f32⟩
  | .hbm, ⟨9, _⟩ => ⟨S32768, .f32⟩
  | .hbm, ⟨10, _⟩ => ⟨S1x32768, .f32⟩
  | .hbm, ⟨11, _⟩ => ⟨S1024x32768, .f32⟩
  | .hbm, ⟨12, _⟩ => ⟨S1024x32768, .f32⟩
  | .hbm, ⟨13, _⟩ => ⟨S1024x32768, .f32⟩
  | .hbm, ⟨14, _⟩ => ⟨S1024x32768, .f32⟩
  | .hbm, ⟨15, _⟩ => ⟨S_, .f32⟩
  | .hbm, ⟨16, _⟩ => ⟨S1024x32768, .f32⟩
  | .hbm, ⟨17, _⟩ => ⟨S1024x32768, .f32⟩
  | .hbm, ⟨18, _⟩ => ⟨S1024x32768, .f32⟩
  | .hbm, ⟨19, _⟩ => ⟨S_, .f32⟩
  | .hbm, ⟨20, _⟩ => ⟨S1024x32768, .f32⟩
  | .hbm, ⟨21, _⟩ => ⟨S1024x32768, .f32⟩
  | .hbm, ⟨22, _⟩ => ⟨S_, .i32⟩
  | .hbm, ⟨23, _⟩ => ⟨S1024x32768, .i32⟩
  | .hbm, ⟨24, _⟩ => ⟨S1024x32768, .i1⟩
  | .hbm, ⟨25, _⟩ => ⟨S1024x32768, .i1⟩
  | .hbm, ⟨26, _⟩ => ⟨S1024x32768, .i1⟩
  | .hbm, ⟨27, _⟩ => ⟨S1024x32768, .f32⟩
  | .hbm, ⟨28, _⟩ => ⟨S1024x32768, .f32⟩
  | .hbm, ⟨29, _⟩ => ⟨S_, .f32⟩
  | .hbm, ⟨30, _⟩ => ⟨S_, .f32⟩
  | .hbm, ⟨31, _⟩ => ⟨S1024x32768, .f32⟩
  | .hbm, ⟨32, _⟩ => ⟨S1024x32768, .f32⟩
  | .hbm, ⟨33, _⟩ => ⟨S_, .f32⟩
  | .hbm, ⟨34, _⟩ => ⟨S1024, .f32⟩
  | .hbm, ⟨35, _⟩ => ⟨S1024x1, .f32⟩
  | .hbm, ⟨36, _⟩ => ⟨S1024x32768, .f32⟩
  | .hbm, ⟨37, _⟩ => ⟨S1024x1, .f32⟩
  | .hbm, ⟨38, _⟩ => ⟨S1024x32768, .f32⟩
  | .hbm, ⟨39, _⟩ => ⟨S1024x32768, .f32⟩
  | .hbm, ⟨40, _⟩ => ⟨S_, .f32⟩
  | .hbm, ⟨41, _⟩ => ⟨S_, .f32⟩
  | .hbm, ⟨42, _⟩ => ⟨S1024x32768, .f32⟩
  | .hbm, ⟨43, _⟩ => ⟨S1024x32768, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_call2_v0 : Ref sig .tc := ⟨.hbm, 41, rfl⟩
abbrev main_call2_v1 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  reducesTo_S1024x128_S1024_d1 : S1024x128.ReducesTo [1] S1024
  h_S_ : 0 < S_.numel
  bcast_S1024_S1024x1_0 : S1024.BroadcastsInDim S1024x1 (![0] : Fin 1 → Fin S1024x1.rank)
  reducesTo_S32768x128_S32768_d1 : S32768x128.ReducesTo [1] S32768
  bcast_S32768_S1x32768_1 : S32768.BroadcastsInDim S1x32768 (![1] : Fin 1 → Fin S1x32768.rank)
  bcast_S1024x1_S1024x32768_0_1 : S1024x1.BroadcastsInDim S1024x32768 (![0, 1] : Fin 2 → Fin S1024x32768.rank)
  bcast_S1x32768_S1024x32768_0_1 : S1x32768.BroadcastsInDim S1024x32768 (![0, 1] : Fin 2 → Fin S1024x32768.rank)
  bcast_S_S1024x32768 : S_.BroadcastsInDim S1024x32768 (![] : Fin 0 → Fin S1024x32768.rank)
  reducesTo_S1024x32768_S1024_d1 : S1024x32768.ReducesTo [1] S1024
  dot_S1024x128_S32768x128_S1024x32768_1_1_0_0_n_n_wf : DotDims.WF S1024x128 S32768x128 S1024x32768 [1] [1] [0] [0] [] []

variable [Facts₀]

def dot_S1024x128_S32768x128_S1024x32768_1_1_0_0_n_n : DotDims S1024x128 S32768x128 S1024x32768 where
  lhsContracting := [1]
  rhsContracting := [1]
  lhsNonContracting := [0]
  rhsNonContracting := [0]
  lhsBatch := []
  rhsBatch := []
  wf := dot_S1024x128_S32768x128_S1024x32768_1_1_0_0_n_n_wf

class Facts : Prop extends Facts₀ where

variable [Facts]
-- ==== Proof.K.LogZBase.lean ====
/-
  Pass 1 — the normalizer — as a region of the program entered at buffer contents `V`: what its three control cases
  share. The grid has 32 points, one per tile of 1024 columns. The body zeroes a column accumulator (a scratch buffer the
  kernel keeps between points) at the first point, adds the tile's masked weights' row sums to it at every point, and at
  the last point stores the accumulator's logarithm into the output block. So a point is in one of three cases:
  first (reset, no output), middle (neither), last (output stored). The output window is idle — handed back untouched
  and not written back — at every point but the last.
-/
import proofs.«161532_j78700980731974_1_alg».proof.Proof.Gen.Kernel.Launch
import proofs.«161532_j78700980731974_1_alg».proof.Proof.Gen.Kernel.Skeleton
import proofs.«161532_j78700980731974_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

-- membership in rectangles of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`): the whole embeddings for window 0,
    rows `1024 t …` of the reference rows for window 1, columns `1024 t …` of the mask for window 2. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    not (an unfetched window's block index has not moved), for any proof data over `V`'s arrays that leave it in place. -/
theorem inBefore0_0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem inBefore0_1 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem inBefore0_2 {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions, decided over the grid -/

/-- "This is the first tile": the condition of the accumulator's reset, as the body computes it from the grid coordinate. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- "This is the last tile": the condition of the output's store. -/
abbrev isLast (i : grid0.Coords) : Prop := k0_cond2 i = 1#1
theorem isLast_iff : ∀ t : Fin cfg0.N, isLast (grid0.coords t) ↔ t.val = 31 :=
  (by decide +kernel : ∀ t : Fin grid0.N, isLast (grid0.coords t) ↔ t.val = 31)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Before the last tile the output window is idle (nothing is stored into it) and is not written back. -/
theorem idle0_3 : ∀ t : Fin cfg0.N, ¬isLast (grid0.coords t) → cfg0.idle 3 (grid0.coords t) = true := by decide +kernel
theorem noFlush0_3 : ∀ t : Fin cfg0.N, ¬isLast (grid0.coords t) → (cfg0.win 3).flush t = false := by decide +kernel
/-- At the last tile it is live. -/
theorem live0_3 : ∀ t : Fin cfg0.N, isLast (grid0.coords t) → cfg0.idle 3 (grid0.coords t) = false := by decide +kernel

/-! ## The memrefs the body is called with -/

/-- One staging buffer of the output window and the accumulator scratch, as views: contents are stated through them. -/
abbrev outView : View sig .tc .vmem S1024x1 .f32 := (Memref.whole cc0_stg3_0 : Memref sig .tc .vmem S1024x1 .f32).view
abbrev accM : Memref sig .tc .vmem S1024x1 .f32 := Memref.whole cc0_scratch0
abbrev accView : View sig .tc .vmem S1024x1 .f32 := accM.view
/-- Each window's current staging memref at point `t`, as the pipeline passes it, and its wholeness. -/
abbrev mr0_0 (t : Fin cfg0.N) : Memref sig .tc .vmem S1024x128 .f32 := win0_0.stage (cfg0.slots t 0)
abbrev hmr0_0 (t : Fin cfg0.N) : (mr0_0 t).IsWhole := hstage0_0 ((cfg0.slots t 0).cast nbuf0_0)
abbrev mr0_1 (t : Fin cfg0.N) : Memref sig .tc .vmem S1024x128 .f32 := win0_1.stage (cfg0.slots t 1)
abbrev hmr0_1 (t : Fin cfg0.N) : (mr0_1 t).IsWhole := hstage0_1 ((cfg0.slots t 1).cast nbuf0_1)
abbrev mr0_2 (t : Fin cfg0.N) : Memref sig .tc .vmem S1024x1024 .i32 := win0_2.stage (cfg0.slots t 2)
abbrev hmr0_2 (t : Fin cfg0.N) : (mr0_2 t).IsWhole := hstage0_2 ((cfg0.slots t 2).cast nbuf0_2)
abbrev mr0_3 (t : Fin cfg0.N) : Memref sig .tc .vmem S1024x1 .f32 := win0_3.stage (cfg0.slots t 3)
abbrev hmr0_3 (t : Fin cfg0.N) : (mr0_3 t).IsWhole := hstage0_3 ((cfg0.slots t 3).cast nbuf0_3)

/-- What the launch hands the region beside its windows — the scoped buffers no window stages and the generator
    register — with the accumulator scratch split off as a memref owned at some contents, the other regions' staging
    buffers left as they come. -/
theorem restSplit0 (c : Dev nD) :
    (Pipeline.ΦA spec0 c : sProp 𝕄)
      = iprop(iprop((∃ d, owns (c : Thread nD τ) accM fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f)) ∗ (∃ r, prngReg c r)) := by
  unfold Pipeline.ΦA; rw [scopedRest0_eq]; simp only [accM, owns_whole]; try rfl

end Cert.Kernel.Hand

end
-- ==== Proof.K.LogZRunFirst.lean ====
/-
  Pass 1's body at the FIRST tile: the accumulator is zeroed, then the tile's masked row sums are added to it; the output
  block is not touched. The pieces the accumulator ends with are found by running the body.
-/
import proofs.«161532_j78700980731974_1_alg».proof.Proof.K.LogZBase

-- membership in rectangles of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in the first case, on whole staging memrefs: the three inputs at their contents, the idle output at
    contents handed back untouched, the accumulator at anything; it ends with the accumulator's pieces written. -/
noncomputable def runFirst (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : isFirst i) (hc1 : ¬isLast i)
    (x0 : Vec F S1024x128 .f32) (x1 : Vec F S1024x128 .f32) (x2 : Vec F S1024x1024 .i32) :
    Σ' (L3 : List (View.Piece (Elt F) S1024x1 .f32)), { LS : List (View.Piece (Elt F) S1024x1 .f32) //
      ∀ (xi3 : Vec F S1024x1 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare xi3 ∗ (∃ d, owns (c : Thread nD τ) a5 fullShare d)
            ∗ (iprop(owns (c : Thread nD τ) a1 fullShare x0 ∗ owns (c : Thread nD τ) a2 fullShare x1 ∗ owns (c : Thread nD τ) a3 fullShare x2 ∗ owns (c : Thread nD τ) a4 fullShare xi3 ∗ (∃ f, a5.view.loc (c : Thread nD τ) ↦[a5.view.set]{fullShare} a5.view.writes (Elt F) f LS)) -∗ K ⟨⟩))
          ⊢ wp frame (wpE (defs₀ (F := F)) Variants.none c none) E (cc0__logz_kernel i a1 h1 a2 h2 a3 h3 a4 h4 a5 h5) K } := by
  refine ⟨[], ?_, fun xi3 E K => ?run⟩
  case run =>
    simp only [cc0__logz_kernel_eq_skeleton]; unfold cc0__logz_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := h1.eq_unread hf0; obtain rfl := h2.eq_unread hf1; obtain rfl := h3.eq_unread hf2; obtain rfl := h4.eq_unread hf3
    sl_exec (disch := first | exact hc0 | exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    iexists _; iexact HS

end Cert.Kernel.Hand

end
-- ==== Proof.K.LogZRunMid.lean ====
/-
  Pass 1's body at a MIDDLE tile: the tile's masked row sums are added to the accumulator the tile before left; the
  output block is not touched.
-/
import proofs.«161532_j78700980731974_1_alg».proof.Proof.K.LogZBase

-- membership in rectangles of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in the middle case: the accumulator comes in at the contents `xs` the point before left. -/
noncomputable def runMid (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : ¬isFirst i) (hc1 : ¬isLast i)
    (x0 : Vec F S1024x128 .f32) (x1 : Vec F S1024x128 .f32) (x2 : Vec F S1024x1024 .i32) (xs : Vec F S1024x1 .f32) :
    Σ' (L3 : List (View.Piece (Elt F) S1024x1 .f32)), { LS : List (View.Piece (Elt F) S1024x1 .f32) //
      ∀ (xi3 : Vec F S1024x1 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare xi3 ∗ owns (c : Thread nD τ) a5 fullShare xs
            ∗ (iprop(owns (c : Thread nD τ) a1 fullShare x0 ∗ owns (c : Thread nD τ) a2 fullShare x1 ∗ owns (c : Thread nD τ) a3 fullShare x2 ∗ owns (c : Thread nD τ) a4 fullShare xi3 ∗ (∃ f, a5.view.loc (c : Thread nD τ) ↦[a5.view.set]{fullShare} a5.view.writes (Elt F) f LS)) -∗ K ⟨⟩))
          ⊢ wp frame (wpE (defs₀ (F := F)) Variants.none c none) E (cc0__logz_kernel i a1 h1 a2 h2 a3 h3 a4 h4 a5 h5) K } := by
  refine ⟨[], ?_, fun xi3 E K => ?run⟩
  case run =>
    simp only [cc0__logz_kernel_eq_skeleton]; unfold cc0__logz_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := h1.eq_unread hf0; obtain rfl := h2.eq_unread hf1; obtain rfl := h3.eq_unread hf2; obtain rfl := h4.eq_unread hf3
    obtain rfl := h5.eq_unread hfs
    sl_exec (disch := first | exact hc0 | exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    iexists _; iexact HS

end Cert.Kernel.Hand

end
-- ==== Proof.K.LogZRunLast.lean ====
/-
  Pass 1's body at the LAST tile: the tile's masked row sums are added to the accumulator, and the logarithm of the total
  is stored into the output block.
-/
import proofs.«161532_j78700980731974_1_alg».proof.Proof.K.LogZBase

-- membership in rectangles of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in the last case: the output block comes in at anything and ends with its pieces written. -/
noncomputable def runLast (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : ¬isFirst i) (hc1 : isLast i)
    (x0 : Vec F S1024x128 .f32) (x1 : Vec F S1024x128 .f32) (x2 : Vec F S1024x1024 .i32) (xs : Vec F S1024x1 .f32) :
    Σ' (L3 : List (View.Piece (Elt F) S1024x1 .f32)), { LS : List (View.Piece (Elt F) S1024x1 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ (∃ d, owns (c : Thread nD τ) a4 fullShare d) ∗ owns (c : Thread nD τ) a5 fullShare xs
            ∗ (iprop(owns (c : Thread nD τ) a1 fullShare x0 ∗ owns (c : Thread nD τ) a2 fullShare x1 ∗ owns (c : Thread nD τ) a3 fullShare x2 ∗ (∃ f, a4.view.loc (c : Thread nD τ) ↦[a4.view.set]{fullShare} a4.view.writes (Elt F) f L3) ∗ (∃ f, a5.view.loc (c : Thread nD τ) ↦[a5.view.set]{fullShare} a5.view.writes (Elt F) f LS)) -∗ K ⟨⟩))
          ⊢ wp frame (wpE (defs₀ (F := F)) Variants.none c none) E (cc0__logz_kernel i a1 h1 a2 h2 a3 h3 a4 h4 a5 h5) K } := by
  refine ⟨?_, ?_, fun E K => ?run⟩
  case run =>
    simp only [cc0__logz_kernel_eq_skeleton]; unfold cc0__logz_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h1.eq_unread hf0; obtain rfl := h2.eq_unread hf1; obtain rfl := h3.eq_unread hf2
    obtain rfl := h5.eq_unread hfs
    sl_exec (disch := first | exact hc0 | exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]; · iexists _; iexact H3
    iexists _; iexact HS

end Cert.Kernel.Hand

end
-- ==== Proof.K.LogZPass.lean ====
/-
  Pass 1 — the normalizer — as a region entered at buffer contents `V`: what the accumulator and the output block hold
  after each tile, the proof data, and the body's obligation at every grid point.

  After tile 0 the accumulator holds the first case's result on the tile's blocks; after tile n + 1 the middle (or, at
  tile 31, the last) case's result on that tile's blocks and what tile n left. The output block holds the logarithm of
  the accumulated total after tile 31 and is untouched before. The region's invariant between tiles is: the
  accumulator scratch at exactly what the tile before left (anything before the first tile), the other scoped buffers
  and the generator register at something.
-/
import proofs.«161532_j78700980731974_1_alg».proof.Proof.K.LogZRunFirst
import proofs.«161532_j78700980731974_1_alg».proof.Proof.K.LogZRunMid
import proofs.«161532_j78700980731974_1_alg».proof.Proof.K.LogZRunLast

-- membership in rectangles of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first case's accumulator pieces tile the scratch, so they cover it. -/
theorem accCoverFirst (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : isFirst i) (hc1 : ¬isLast i) (x0 : Vec F S1024x128 .f32) (x1 : Vec F S1024x128 .f32) (x2 : Vec F S1024x1024 .i32) (y : S1024x1.Idx) :
    ∃ pc ∈ (runFirst c i a1 h1 a2 h2 a3 h3 a4 h4 a5 h5 hc0 hc1 x0 x1 x2).2.1, y ∈ pc.1.set :=
  View.cover_of_tiledL (runFirst c i a1 h1 a2 h2 a3 h3 a4 h4 a5 h5 hc0 hc1 x0 x1 x2).2.1 S1024x1.size (by sl_kernel_rfl) y
/-- What the first case leaves in the accumulator: its pieces read back. -/
def accFirst (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : isFirst i) (hc1 : ¬isLast i) (x0 : Vec F S1024x128 .f32) (x1 : Vec F S1024x128 .f32) (x2 : Vec F S1024x1024 .i32) : Vec F S1024x1 .f32 :=
  accView.read (Elt F) (accView.writes (Elt F) accView.junk (runFirst c i a1 h1 a2 h2 a3 h3 a4 h4 a5 h5 hc0 hc1 x0 x1 x2).2.1)

theorem accCoverMid (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : ¬isFirst i) (hc1 : ¬isLast i) (x0 : Vec F S1024x128 .f32) (x1 : Vec F S1024x128 .f32) (x2 : Vec F S1024x1024 .i32) (xs : Vec F S1024x1 .f32) (y : S1024x1.Idx) :
    ∃ pc ∈ (runMid c i a1 h1 a2 h2 a3 h3 a4 h4 a5 h5 hc0 hc1 x0 x1 x2 xs).2.1, y ∈ pc.1.set :=
  View.cover_of_tiledL (runMid c i a1 h1 a2 h2 a3 h3 a4 h4 a5 h5 hc0 hc1 x0 x1 x2 xs).2.1 S1024x1.size (by sl_kernel_rfl) y
/-- What a middle case leaves in the accumulator, over what the tile before left (`xs`). -/
def accMid (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : ¬isFirst i) (hc1 : ¬isLast i) (x0 : Vec F S1024x128 .f32) (x1 : Vec F S1024x128 .f32) (x2 : Vec F S1024x1024 .i32) (xs : Vec F S1024x1 .f32) : Vec F S1024x1 .f32 :=
  accView.read (Elt F) (accView.writes (Elt F) accView.junk (runMid c i a1 h1 a2 h2 a3 h3 a4 h4 a5 h5 hc0 hc1 x0 x1 x2 xs).2.1)

theorem accCoverLast (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : ¬isFirst i) (hc1 : isLast i) (x0 : Vec F S1024x128 .f32) (x1 : Vec F S1024x128 .f32) (x2 : Vec F S1024x1024 .i32) (xs : Vec F S1024x1 .f32) (y : S1024x1.Idx) :
    ∃ pc ∈ (runLast c i a1 h1 a2 h2 a3 h3 a4 h4 a5 h5 hc0 hc1 x0 x1 x2 xs).2.1, y ∈ pc.1.set :=
  View.cover_of_tiledL (runLast c i a1 h1 a2 h2 a3 h3 a4 h4 a5 h5 hc0 hc1 x0 x1 x2 xs).2.1 S1024x1.size (by sl_kernel_rfl) y
def accLast (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : ¬isFirst i) (hc1 : isLast i) (x0 : Vec F S1024x128 .f32) (x1 : Vec F S1024x128 .f32) (x2 : Vec F S1024x1024 .i32) (xs : Vec F S1024x1 .f32) : Vec F S1024x1 .f32 :=
  accView.read (Elt F) (accView.writes (Elt F) accView.junk (runLast c i a1 h1 a2 h2 a3 h3 a4 h4 a5 h5 hc0 hc1 x0 x1 x2 xs).2.1)
/-- The last case's output pieces tile the output block. -/
theorem outCoverLast (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : ¬isFirst i) (hc1 : isLast i) (x0 : Vec F S1024x128 .f32) (x1 : Vec F S1024x128 .f32) (x2 : Vec F S1024x1024 .i32) (xs : Vec F S1024x1 .f32) (y : S1024x1.Idx) :
    ∃ pc ∈ (runLast c i a1 h1 a2 h2 a3 h3 a4 h4 a5 h5 hc0 hc1 x0 x1 x2 xs).1, y ∈ pc.1.set :=
  View.cover_of_tiledL (runLast c i a1 h1 a2 h2 a3 h3 a4 h4 a5 h5 hc0 hc1 x0 x1 x2 xs).1 S1024x1.size (by sl_kernel_rfl) y
/-- What the last case leaves in the output block. -/
def outLast (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : ¬isFirst i) (hc1 : isLast i) (x0 : Vec F S1024x128 .f32) (x1 : Vec F S1024x128 .f32) (x2 : Vec F S1024x1024 .i32) (xs : Vec F S1024x1 .f32) : Vec F S1024x1 .f32 :=
  outView.read (Elt F) (outView.writes (Elt F) outView.junk (runLast c i a1 h1 a2 h2 a3 h3 a4 h4 a5 h5 hc0 hc1 x0 x1 x2 xs).1)

/-- A placeholder for the output block's contents at the points where it is idle: nothing consults it there (the block
    is neither written back nor read at the next point). -/
def noOut : Vec F S1024x1 .f32 := outView.read (Elt F) outView.junk

/-! ## The accumulation, tile by tile -/

/-- What the output block and the accumulator hold after the body at tile `n` (a pair: output, accumulator). -/
def stateAt (c : Dev nD) : (n : ℕ) → n < cfg0.N → Vec F S1024x1 .f32 × Vec F S1024x1 .f32
  | 0, hn => (noOut, accFirst c (grid0.coords ⟨0, hn⟩) (mr0_0 ⟨0, hn⟩) (hmr0_0 ⟨0, hn⟩) (mr0_1 ⟨0, hn⟩) (hmr0_1 ⟨0, hn⟩) (mr0_2 ⟨0, hn⟩) (hmr0_2 ⟨0, hn⟩) (mr0_3 ⟨0, hn⟩) (hmr0_3 ⟨0, hn⟩) accM (Memref.isWhole_whole _) ((isFirst_iff ⟨0, hn⟩).mpr rfl) (fun h => absurd ((isLast_iff ⟨0, hn⟩).mp h) (show ¬(0 : ℕ) = 31 by decide)) (iblk0 V c 0 ⟨0, hn⟩) (iblk0 V c 1 ⟨0, hn⟩) (iblk0 V c 2 ⟨0, hn⟩))
  | n + 1, hn =>
    if hl : n + 1 = 31 then
      (outLast c (grid0.coords ⟨n + 1, hn⟩) (mr0_0 ⟨n + 1, hn⟩) (hmr0_0 ⟨n + 1, hn⟩) (mr0_1 ⟨n + 1, hn⟩) (hmr0_1 ⟨n + 1, hn⟩) (mr0_2 ⟨n + 1, hn⟩) (hmr0_2 ⟨n + 1, hn⟩) (mr0_3 ⟨n + 1, hn⟩) (hmr0_3 ⟨n + 1, hn⟩) accM (Memref.isWhole_whole _) (fun h => Nat.succ_ne_zero n ((isFirst_iff ⟨n + 1, hn⟩).mp h)) ((isLast_iff ⟨n + 1, hn⟩).mpr hl) (iblk0 V c 0 ⟨n + 1, hn⟩) (iblk0 V c 1 ⟨n + 1, hn⟩) (iblk0 V c 2 ⟨n + 1, hn⟩) (stateAt c n (Nat.lt_of_succ_lt hn)).2,
       accLast c (grid0.coords ⟨n + 1, hn⟩) (mr0_0 ⟨n + 1, hn⟩) (hmr0_0 ⟨n + 1, hn⟩) (mr0_1 ⟨n + 1, hn⟩) (hmr0_1 ⟨n + 1, hn⟩) (mr0_2 ⟨n + 1, hn⟩) (hmr0_2 ⟨n + 1, hn⟩) (mr0_3 ⟨n + 1, hn⟩) (hmr0_3 ⟨n + 1, hn⟩) accM (Memref.isWhole_whole _) (fun h => Nat.succ_ne_zero n ((isFirst_iff ⟨n + 1, hn⟩).mp h)) ((isLast_iff ⟨n + 1, hn⟩).mpr hl) (iblk0 V c 0 ⟨n + 1, hn⟩) (iblk0 V c 1 ⟨n + 1, hn⟩) (iblk0 V c 2 ⟨n + 1, hn⟩) (stateAt c n (Nat.lt_of_succ_lt hn)).2)
    else
      (noOut, accMid c (grid0.coords ⟨n + 1, hn⟩) (mr0_0 ⟨n + 1, hn⟩) (hmr0_0 ⟨n + 1, hn⟩) (mr0_1 ⟨n + 1, hn⟩) (hmr0_1 ⟨n + 1, hn⟩) (mr0_2 ⟨n + 1, hn⟩) (hmr0_2 ⟨n + 1, hn⟩) (mr0_3 ⟨n + 1, hn⟩) (hmr0_3 ⟨n + 1, hn⟩) accM (Memref.isWhole_whole _) (fun h => Nat.succ_ne_zero n ((isFirst_iff ⟨n + 1, hn⟩).mp h)) (fun h => hl ((isLast_iff ⟨n + 1, hn⟩).mp h)) (iblk0 V c 0 ⟨n + 1, hn⟩) (iblk0 V c 1 ⟨n + 1, hn⟩) (iblk0 V c 2 ⟨n + 1, hn⟩) (stateAt c n (Nat.lt_of_succ_lt hn)).2)

/-- `stateAt` at the first tile. -/
theorem stateAt_first (c : Dev nD) (t : Fin cfg0.N) (h0 : t.val = 0) :
    stateAt V c t.val t.isLt = (noOut, accFirst c (grid0.coords t) (mr0_0 t) (hmr0_0 t) (mr0_1 t) (hmr0_1 t) (mr0_2 t) (hmr0_2 t) (mr0_3 t) (hmr0_3 t) accM (Memref.isWhole_whole _) ((isFirst_iff t).mpr h0) (fun h => absurd ((isLast_iff t).mp h) (by omega)) (iblk0 V c 0 t) (iblk0 V c 1 t) (iblk0 V c 2 t)) := by
  obtain ⟨n, hn⟩ := t
  cases n with
  | zero => rfl
  | succ n => exact absurd h0 (Nat.succ_ne_zero n)

/-- `stateAt` at a middle tile: over what the tile before left. -/
theorem stateAt_mid (c : Dev nD) (t : Fin cfg0.N) (h0 : ¬t.val = 0) (h1 : ¬t.val = 31) :
    stateAt V c t.val t.isLt = (noOut, accMid c (grid0.coords t) (mr0_0 t) (hmr0_0 t) (mr0_1 t) (hmr0_1 t) (mr0_2 t) (hmr0_2 t) (mr0_3 t) (hmr0_3 t) accM (Memref.isWhole_whole _) (fun h => h0 ((isFirst_iff t).mp h)) (fun h => h1 ((isLast_iff t).mp h)) (iblk0 V c 0 t) (iblk0 V c 1 t) (iblk0 V c 2 t) (stateAt V c (t.val - 1) (Nat.lt_of_le_of_lt (Nat.sub_le _ _) t.isLt)).2) := by
  obtain ⟨n, hn⟩ := t
  cases n with
  | zero => exact absurd rfl h0
  | succ n => exact (dif_neg h1).trans rfl

/-- `stateAt` at the last tile. -/
theorem stateAt_last (c : Dev nD) (t : Fin cfg0.N) (h0 : ¬t.val = 0) (h1 : t.val = 31) :
    stateAt V c t.val t.isLt = (outLast c (grid0.coords t) (mr0_0 t) (hmr0_0 t) (mr0_1 t) (hmr0_1 t) (mr0_2 t) (hmr0_2 t) (mr0_3 t) (hmr0_3 t) accM (Memref.isWhole_whole _) (fun h => h0 ((isFirst_iff t).mp h)) ((isLast_iff t).mpr h1) (iblk0 V c 0 t) (iblk0 V c 1 t) (iblk0 V c 2 t) (stateAt V c (t.val - 1) (Nat.lt_of_le_of_lt (Nat.sub_le _ _) t.isLt)).2,
      accLast c (grid0.coords t) (mr0_0 t) (hmr0_0 t) (mr0_1 t) (hmr0_1 t) (mr0_2 t) (hmr0_2 t) (mr0_3 t) (hmr0_3 t) accM (Memref.isWhole_whole _) (fun h => h0 ((isFirst_iff t).mp h)) ((isLast_iff t).mpr h1) (iblk0 V c 0 t) (iblk0 V c 1 t) (iblk0 V c 2 t) (stateAt V c (t.val - 1) (Nat.lt_of_le_of_lt (Nat.sub_le _ _) t.isLt)).2) := by
  obtain ⟨n, hn⟩ := t
  cases n with
  | zero => exact absurd rfl h0
  | succ n => exact (dif_pos h1).trans rfl

/-! ## The invariant between tiles -/

/-- The other regions' staging buffers, each whole at some contents: scoped buffers this region never touches. -/
abbrev otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

theorem restSplit0' (c : Dev nD) :
    (Pipeline.ΦA spec0 c : sProp 𝕄) = iprop(iprop((∃ d, owns (c : Thread nD τ) accM fullShare d) ∗ otherScoped c) ∗ (∃ r, prngReg c r)) :=
  restSplit0 c

/-- The region's invariant before tile `n`: before the first, whatever the launch hands over; afterwards the accumulator
    at what tile `n - 1` left in it. -/
def PhiS (c : Dev nD) : (n : ℕ) → n ≤ cfg0.N → sProp 𝕄
  | 0, _ => Pipeline.ΦA spec0 c
  | n + 1, hn => iprop(iprop(owns (c : Thread nD τ) accM fullShare ((stateAt V c n hn).2) ∗ otherScoped c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare ((stateAt V c n hn).2) ∗ otherScoped c) ∗ (∃ r, prngReg c r)) := rfl
theorem PhiS_pos (c : Dev nD) (n : ℕ) (h : n ≤ cfg0.N) (hz : n ≠ 0) :
    PhiS V c n h = iprop(iprop(owns (c : Thread nD τ) accM fullShare ((stateAt V c (n - 1) (by omega)).2) ∗ otherScoped c) ∗ (∃ r, prngReg c r)) := by
  cases n with
  | zero => exact absurd rfl hz
  | succ n => rfl

/-! ## The proof data -/

/-- The pipeline's proof data on core `c`: the arrays as the region finds them; after the body at tile `t` each input's
    buffer at its block and the output's at `stateAt`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (stateAt V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi_castSucc0 (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (stateAt V c t.val t.isLt).1 := by dsimp only [dat0]

theorem before0_0 (c : Dev nD) (t : Fin cfg0.N) (d) : (dat0 V c).before 0 t d = iblk0 V c 0 t :=
  inBefore0_0 V (dat0 V c) (A_eq0 V c 0) (after0_0 V c) t d
theorem before0_1 (c : Dev nD) (t : Fin cfg0.N) (d) : (dat0 V c).before 1 t d = iblk0 V c 1 t :=
  inBefore0_1 V (dat0 V c) (A_eq0 V c 1) (after0_1 V c) t d
theorem before0_2 (c : Dev nD) (t : Fin cfg0.N) (d) : (dat0 V c).before 2 t d = iblk0 V c 2 t :=
  inBefore0_2 V (dat0 V c) (A_eq0 V c 2) (after0_2 V c) t d

/-! ## The body obligation -/

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (mr0_0 t) fullShare ((dat0 V c).before 0 t d))
    ∗ (∃ d, owns (c : Thread nD τ) (mr0_1 t) fullShare ((dat0 V c).before 1 t d))
    ∗ (∃ d, owns (c : Thread nD τ) (mr0_2 t) fullShare ((dat0 V c).before 2 t d))
    ∗ (∃ d, owns (c : Thread nD τ) (mr0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (mr0_0 t) fullShare (iblk0 V c 0 t) := by
  unfold Dat.leavesExact; rw [live0_0 t, after0_0]
theorem leaves0_1 (c : Dev nD) (t : Fin cfg0.N) : (dat0 V c).leavesExact 1 t = owns (c : Thread nD τ) (mr0_1 t) fullShare (iblk0 V c 1 t) := by
  unfold Dat.leavesExact; rw [live0_1 t, after0_1]
theorem leaves0_2 (c : Dev nD) (t : Fin cfg0.N) : (dat0 V c).leavesExact 2 t = owns (c : Thread nD τ) (mr0_2 t) fullShare (iblk0 V c 2 t) := by
  unfold Dat.leavesExact; rw [live0_2 t, after0_2]

set_option maxHeartbeats 4800000 in
/-- The body at any tile: the inputs' memrefs hold their blocks; the closed forms say which case the tile is in; the
    invariant hands the body the accumulator at what the tile before left (at anything at the first tile) and takes it
    back at this tile's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 32 := lt_of_lt_of_eq t.isLt (show cfg0.N = 32 from N_0)
  by_cases h0 : t.val = 0
  · have h1 : ¬t.val = 31 := by omega
    rw [Dat.leavesExact_idle (dat0 V c) 3 t (idle0_3 t (fun h => h1 ((isLast_iff t).mp h))) (noFlush0_3 t (fun h => h1 ((isLast_iff t).mp h)))]
    rw [stateAt_first V c t h0]
    unfold accFirst; (try dsimp only)
    rw [Phi_castSucc0 V c t, PhiS_zero V c _ _ h0, restSplit0']
    iintro ⟨⟨⟨HS, Hoth⟩, Hg⟩, Ho, ⟨%d0, H0⟩, ⟨%d1, H1⟩, ⟨%d2, H2⟩, ⟨%d3, H3⟩⟩
    iapply ((runFirst c (grid0.coords t) _ _ _ _ _ _ _ _ _ _ ((isFirst_iff t).mpr h0) (fun h => absurd ((isLast_iff t).mp h) (by omega)) (iblk0 V c 0 t) (iblk0 V c 1 t) (iblk0 V c 2 t)).2.2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hoth Hg]
    · isplitl [HS Hoth]
      · isplitl [HS]
        · unfold owns; iexists _; isplitr
          swap; · iexact HS
          ipureintro; exact View.read_writes_of_cover _ _ _ _ _ (accCoverFirst c _ _ _ _ _ _ _ _ _ _ _ _ _ _ _ _)
        iexact Hoth
      iexact Hg
    isplitl [Ho]; · iexact Ho
    isplitl [H0]; · iexact H0
    isplitl [H1]; · iexact H1
    isplitl [H2]; · iexact H2
    iexists _; iexact H3
  · by_cases h1 : t.val = 31
    · rw [show (dat0 V c).leavesExact 3 t = owns (c : Thread nD τ) (mr0_3 t) fullShare ((dat0 V c).after 3 t) from by
        unfold Dat.leavesExact; rw [live0_3 t ((isLast_iff t).mpr h1)], after0_3]
      rw [stateAt_last V c t h0 h1]
      unfold outLast accLast; (try dsimp only)
      rw [Phi_castSucc0 V c t, PhiS_pos V c _ _ h0]
      iintro ⟨⟨⟨HS, Hoth⟩, Hg⟩, Ho, ⟨%d0, H0⟩, ⟨%d1, H1⟩, ⟨%d2, H2⟩, ⟨%d3, H3⟩⟩
      iapply ((runLast c (grid0.coords t) _ _ _ _ _ _ _ _ _ _ (fun h => h0 ((isFirst_iff t).mp h)) ((isLast_iff t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (accCoverLast c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast c _ _ _ _ _ _ _ _ _ _ _ _ _ _ _ _ _)
    · rw [Dat.leavesExact_idle (dat0 V c) 3 t (idle0_3 t (fun h => h1 ((isLast_iff t).mp h))) (noFlush0_3 t (fun h => h1 ((isLast_iff t).mp h)))]
      rw [stateAt_mid V c t h0 h1]
      unfold accMid; (try dsimp only)
      rw [Phi_castSucc0 V c t, PhiS_pos V c _ _ h0]
      iintro ⟨⟨⟨HS, Hoth⟩, Hg⟩, Ho, ⟨%d0, H0⟩, ⟨%d1, H1⟩, ⟨%d2, H2⟩, ⟨%d3, H3⟩⟩
      iapply ((runMid c (grid0.coords t) _ _ _ _ _ _ _ _ _ _ (fun h => h0 ((isFirst_iff t).mp h)) (fun h => h1 ((isLast_iff t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accCoverMid c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every tile. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first tile. -/
theorem phi_in0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last tile the invariant gives the same back: the accumulator's named contents are forgotten. -/
theorem phi_out0 (c : Dev nD) : (dat0 V c).Φ (Fin.last cfg0.N) ⊢ Pipeline.ΦA spec0 c := by
  have hN : cfg0.N = 32 := N_0
  rw [show (dat0 V c).Φ (Fin.last cfg0.N) = PhiS V c (Fin.last cfg0.N).val (Nat.le_of_lt_succ (Fin.last cfg0.N).isLt) from rfl,
    PhiS_pos V c _ _ (by rw [Fin.val_last]; omega), restSplit0']
  iintro ⟨⟨HS, Hoth⟩, Hg⟩
  isplitl [HS Hoth]
  · isplitl [HS]
    · iexists _; iexact HS
    iexact Hoth
  iexact Hg

end Cert.Kernel.Hand

end
-- ==== Proof.K.OutPass.lean ====
/-
  The second pass (the kernel that writes the masked log-probabilities) as one pipelined region, stated at ANY
  contents `V` of the core's buffers when the region is entered.

  At each of the 32 grid points the body reads four staged blocks — the embeddings (whole), one tile of 1024
  reference rows, the matching tile of 1024 mask columns, the log-normalizer column (whole) — and overwrites the
  staged output tile with one store of the whole block. So after the body the output's staging buffer is a function
  of the four input blocks alone (`outTile`), whatever it held before, and every input's buffer is as it was found.
  That is the whole content of the body obligation below.
-/
import proofs.«161532_j78700980731974_1_alg».proof.Proof.Gen.Kernel.Launch
import proofs.«161532_j78700980731974_1_alg».proof.Proof.Gen.Kernel.Skeleton
import proofs.«161532_j78700980731974_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show at a grid point -/

/-- The block of window `w` at grid point `t`: the window's rectangle there, read off the window's array as the
    region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds the window's block at EVERY point, also at a point where nothing was
    fetched: there the block index has not moved since the last fetch, and the body left the block in place. The four
    inputs one by one (the embeddings and the normalizer column are fetched once, at the first point; the row tile and
    the mask tile at every point — the statement is the same). Each holds for any proof data over `V`'s arrays whose
    body returns the block unchanged. -/

theorem stagedIn0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

theorem stagedIn1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

theorem stagedIn2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl)
      (fun t => by rw [hafter]; unfold Dat.blockOf iblk1; rw [hA]; try rfl) t d).trans
    (by unfold Dat.fetched Dat.blockOf iblk1; rw [hA]; try rfl)

theorem stagedIn3 {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl)
      (fun t => by rw [hafter]; unfold Dat.blockOf iblk1; rw [hA]; try rfl) t d).trans
    (by unfold Dat.fetched Dat.blockOf iblk1; rw [hA]; try rfl)

/-! ## What the body reads and writes -/

/-- The whole 1024 × 128 block (both the embeddings' load and the row tile's). -/
abbrev boxE : Rect S1024x128 := Rect.unit (s := S1024x128) ![0, 0] S1024x128.size inb_S1024x128_S1024x128_0_0
/-- The whole 1024 × 1024 block (the mask tile's load and the output tile's store). -/
abbrev boxT : Rect S1024x1024 := Rect.unit (s := S1024x1024) ![0, 0] S1024x1024.size inb_S1024x1024_S1024x1024_0_0
/-- The whole 1024 × 1 column (the normalizer's load). -/
abbrev boxZ : Rect S1024x1 := Rect.unit (s := S1024x1) ![0, 0] S1024x1.size inb_S1024x1_S1024x1_0_0

/-- The output tile's staging buffer after the body, as a function of the four input blocks: the body's single store,
    of the whole tile, of the select computed from the four loads. -/
def outTile (x0 x1 : Vec F S1024x128 .f32) (x2 : Vec F S1024x1024 .i32) (x3 : Vec F S1024x1 .f32) : Vec F S1024x1024 .f32 :=
  View.canon [⟨boxT, k1_pay1 (View.ld x0 boxE) (View.ld x1 boxE) (View.ld x2 boxT) (View.ld x3 boxZ)⟩]

/-- One store of the whole tile covers the tile: its rectangle starts at the origin, has the tile's extents and unit
    strides. -/
theorem outTile_cover (p : boxT.shape.Idx → Elt F .f32) (y : S1024x1024.Idx) :
    ∃ pc ∈ ([⟨boxT, p⟩] : List (View.Piece (Elt F) S1024x1024 .f32)), y ∈ pc.1.set :=
  View.cover_of_wholeMem [⟨boxT, p⟩] (by sl_whole_mem) y

/-! ## The body's triple -/

set_option maxHeartbeats 1000000 in
/-- The body on whole staging memrefs — the four inputs' at contents reading `x0 … x3`, the output's at anything — runs
    to a state where the inputs' are as found and the output's reads `outTile x0 x1 x2 x3`. The body also loads the
    output tile before overwriting it; that value is not used. -/
theorem sound_kernel1 (c : Dev nD) (E : Set ℕ) (i : grid1.Coords)
    (arg1 : Memref sig .tc .vmem S1024x128 .f32) (harg1 : arg1.IsWhole) (arg2 : Memref sig .tc .vmem S1024x128 .f32) (harg2 : arg2.IsWhole)
    (arg3 : Memref sig .tc .vmem S1024x1024 .i32) (harg3 : arg3.IsWhole) (arg4 : Memref sig .tc .vmem S1024x1 .f32) (harg4 : arg4.IsWhole)
    (arg5 : Memref sig .tc .vmem S1024x1024 .f32) (harg5 : arg5.IsWhole)
    (x0 x1 : Vec F S1024x128 .f32) (x2 : Vec F S1024x1024 .i32) (x3 : Vec F S1024x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outTile x0 x1 x2 x3)) -∗ K ⟨⟩))
      ⊢ wp frame (wpE (defs₀ (F := F)) Variants.none c none) E (cc1__out_kernel i arg1 harg1 arg2 harg2 arg3 harg3 arg4 harg4 arg5 harg5) K := by
  simp only [cc1__out_kernel_eq_skeleton]; unfold cc1__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outTile_cover _)

/-! ## The region's proof data -/

/-- The proof data of this pipeline on core `c`: the arrays as the region finds them; after the body at point `t` every
    input's buffer at its block and the output's at `outTile` of the four input blocks; the invariant the one that
    leaves everything outside the pipeline untouched; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outTile (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = outTile (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  stagedIn0 V (dat1 V c) (A_eq1 V c 0) (after1_0 V c) t d
theorem before1_1 (c : Dev nD) (t : Fin cfg1.N) (d) : (dat1 V c).before 1 t d = iblk1 V c 1 t :=
  stagedIn1 V (dat1 V c) (A_eq1 V c 1) (after1_1 V c) t d
theorem before1_2 (c : Dev nD) (t : Fin cfg1.N) (d) : (dat1 V c).before 2 t d = iblk1 V c 2 t :=
  stagedIn2 V (dat1 V c) (A_eq1 V c 2) (after1_2 V c) t d
theorem before1_3 (c : Dev nD) (t : Fin cfg1.N) (d) : (dat1 V c).before 3 t d = iblk1 V c 3 t :=
  stagedIn3 V (dat1 V c) (A_eq1 V c 3) (after1_3 V c) t d

/-! ## The body obligation -/

/-- What the pipeline hands the body at point `t`: the invariant, what the core owes, and each window's current staging
    buffer whole, at what the proof data says it holds before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body hands back: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple applies at those blocks; the invariant
    and what the core owes are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole program as two regions run one after the other: pass 1 is entered at the launch contents and leaves the
  log-normalizer column in its result array; pass 2 is entered at what pass 1 left and leaves the masked
  log-probabilities in the program's result. No host operation stands between or around them. Every weakly fair
  execution terminates, and the final memory holds every unscoped buffer at the second boundary's contents: the
  arguments as launched (each is only read, through input windows), the result at what pass 2's write-backs leave.
-/
import proofs.«161532_j78700980731974_1_alg».proof.Proof.K.LogZPass
import proofs.«161532_j78700980731974_1_alg».proof.Proof.K.OutPass

-- membership in rectangles of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the three boundaries -/

/-- Core `c`'s buffers at launch (pass 1's entry). -/
abbrev W0 : Dev nD → Valuation τ sig (Elt F) := fun c b => m (c, b)
/-- The same read at the TensorCore's references. -/
abbrev E0 : (c : Dev nD) → (b : Ref sig .tc) → Buf (Elt F) ((c : Thread nD τ).loc b) := fun c b => W0 m c b
/-- At pass 1's exit (pass 2's entry): its arrays at what the pipeline leaves, every other buffer as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : (c : Dev nD) → (b : Ref sig .tc) → Buf (Elt F) ((c : Thread nD τ).loc b) := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- At pass 2's exit. -/
def W2 (c : Dev nD) : Valuation τ sig (Elt F) :=
  Pipeline.withArrays spec1 c (W1 m c) fun w => (dat1 (E1 m) c).arrAt w cfg1.N
theorem W2_arr (c : Dev nD) (w : Fin cfg1.W) :
    W2 m c (Proc.devRef .tc (Pipeline.arrRef spec1 w)) = (dat1 (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev E2 : (c : Dev nD) → (b : Ref sig .tc) → Buf (Elt F) ((c : Thread nD τ).loc b) := fun c b => W2 m c b
theorem hF1 (c : Dev nD) (w : Fin cfg1.W) : (dat1 (E1 m) c).arrAt w cfg1.N = E2 m c (Pipeline.arrRef spec1 w) :=
  (W2_arr m c w).symm
theorem hrest1 (c : Dev nD) : ∀ b, b ∉ Finset.univ.image (Pipeline.arrRef spec1) → E2 m c b = E1 m c b :=
  fun b hb => W2_of_ne m c b fun w e => hb (Finset.mem_image.mpr ⟨w, Finset.mem_univ _, e⟩)

/-! ### An argument is only ever read: it is an input window's array in both passes -/

theorem E1_arg0 (c : Dev nD) : E1 m c main_arg0 = m ((c : Thread nD τ).loc main_arg0) :=
  (W1_arr m c 0).trans (((dat0 (E0 m) c).arrAt_in 0 rfl _).trans (A_eq0 (E0 m) c 0))
theorem E1_arg1 (c : Dev nD) : E1 m c main_arg1 = m ((c : Thread nD τ).loc main_arg1) :=
  (W1_arr m c 1).trans (((dat0 (E0 m) c).arrAt_in 1 rfl _).trans (A_eq0 (E0 m) c 1))
theorem E1_arg2 (c : Dev nD) : E1 m c main_arg2 = m ((c : Thread nD τ).loc main_arg2) :=
  (W1_arr m c 2).trans (((dat0 (E0 m) c).arrAt_in 2 rfl _).trans (A_eq0 (E0 m) c 2))
/-- Pass 2 finds in pass 1's result array what pass 1's write-backs left there. -/
theorem E1_v0 (c : Dev nD) : E1 m c main_v0 = (dat0 (E0 m) c).arrAt 3 cfg0.N := W1_arr m c 3

theorem E2_arg0 (c : Dev nD) : E2 m c main_arg0 = m ((c : Thread nD τ).loc main_arg0) :=
  ((W2_arr m c 0).trans (((dat1 (E1 m) c).arrAt_in 0 rfl _).trans (A_eq1 (E1 m) c 0))).trans (E1_arg0 m c)
theorem E2_arg1 (c : Dev nD) : E2 m c main_arg1 = m ((c : Thread nD τ).loc main_arg1) :=
  ((W2_arr m c 1).trans (((dat1 (E1 m) c).arrAt_in 1 rfl _).trans (A_eq1 (E1 m) c 1))).trans (E1_arg1 m c)
theorem E2_arg2 (c : Dev nD) : E2 m c main_arg2 = m ((c : Thread nD τ).loc main_arg2) :=
  ((W2_arr m c 2).trans (((dat1 (E1 m) c).arrAt_in 2 rfl _).trans (A_eq1 (E1 m) c 2))).trans (E1_arg2 m c)
/-- The program's result ends at what pass 2's write-backs leave. -/
theorem E2_v1 (c : Dev nD) : E2 m c main_v1 = (dat1 (E1 m) c).arrAt 4 cfg1.N := W2_arr m c 4

/-! ## The proof data family and the thread state -/

/-- No pallas_call has a prefetched table. -/
abbrev adm : (p : Fin 2) → (pcfgs (F := F) p).Adm := fun p => (cfgs p).toPCfg_adm
/-- Each pipeline's proof data at its region's entry contents — a literal match on the pipeline. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W2 m c) ∗ ∃ r, prngReg c r)

/-! ## The regions as segments -/

-- a library lemma stated over the pinned configuration unifies with the printed one only when unification may unfold
-- plain definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec0 c ⊢ (pdats m 0 c).Φ 0 from phi_in0 (E0 m) c)
    unfold Pipeline.ΦA
    isplitl [Hr]; · iexact Hr
    iexact Hp
  hout c := by
    rw [Pipeline.ownSems0_none]
    have hback : (pdats m 0 c).Φ (Fin.last _) ⊢ iprop(Pipeline.scopedRest (Ix := Unit) (Name := ℕ) (U := UR sig nD τ) (Lvl := ℕ) (Val := Elt F) spec0 c ∗ ∃ r, prngReg c r) := phi_out0 (E0 m) c
    iintro HΦ
    ihave H' := hback $$ HΦ
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates, nothing
    faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (E2_arg0 m c),
     (h c _ (mem_uc main_arg1 (by decide))).trans (E2_arg1 m c),
     (h c _ (mem_uc main_arg2 (by decide))).trans (E2_arg2 m c)⟩) (run_all m ρ)

/-- The run with the result named: the result array ends at what pass 2's write-backs leave, pass 2 having found in
    pass 1's result array what pass 1's write-backs left. -/
theorem run_value : θ_run defs (onTc (τ := τ) (main (F := F))) ⟨m, fun _ => 0, ρ⟩ (fun r => ∀ c : Dev nD,
      r.2.mem ((c.tc : Thread nD τ).loc main_v1) = (dat1 (E1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (E2_v1 m c),
     (h c _ (mem_uc main_arg0 (by decide))).trans (E2_arg0 m c),
     (h c _ (mem_uc main_arg1 (by decide))).trans (E2_arg1 m c),
     (h c _ (mem_uc main_arg2 (by decide))).trans (E2_arg2 m c)⟩) (run_all m ρ)

end Cert.Kernel.Hand

end
-- ==== Proof.KI.LogZBase.lean ====
/-
  Pass 1 — the normalizer — as a region of the program entered at buffer contents `V`: what its three control cases
  share. The grid has 32 points, one per tile of 1024 columns. The body zeroes a column accumulator (a scratch buffer the
  kernel keeps between points) at the first point, adds the tile's masked weights' row sums to it at every point, and at
  the last point stores the accumulator's logarithm into the output block. So a point is in one of three cases:
  first (reset, no output), middle (neither), last (output stored). The output window is idle — handed back untouched
  and not written back — at every point but the last.
-/
import proofs.«161532_j78700980731974_1_alg».proof.Proof.Gen.KernelIdeal.Launch
import proofs.«161532_j78700980731974_1_alg».proof.Proof.Gen.KernelIdeal.Skeleton
import proofs.«161532_j78700980731974_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

-- membership in rectangles of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`): the whole embeddings for window 0,
    rows `1024 t …` of the reference rows for window 1, columns `1024 t …` of the mask for window 2. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    not (an unfetched window's block index has not moved), for any proof data over `V`'s arrays that leave it in place. -/
theorem inBefore0_0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem inBefore0_1 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem inBefore0_2 {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions, decided over the grid -/

/-- "This is the first tile": the condition of the accumulator's reset, as the body computes it from the grid coordinate. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- "This is the last tile": the condition of the output's store. -/
abbrev isLast (i : grid0.Coords) : Prop := k0_cond2 i = 1#1
theorem isLast_iff : ∀ t : Fin cfg0.N, isLast (grid0.coords t) ↔ t.val = 31 :=
  (by decide +kernel : ∀ t : Fin grid0.N, isLast (grid0.coords t) ↔ t.val = 31)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Before the last tile the output window is idle (nothing is stored into it) and is not written back. -/
theorem idle0_3 : ∀ t : Fin cfg0.N, ¬isLast (grid0.coords t) → cfg0.idle 3 (grid0.coords t) = true := by decide +kernel
theorem noFlush0_3 : ∀ t : Fin cfg0.N, ¬isLast (grid0.coords t) → (cfg0.win 3).flush t = false := by decide +kernel
/-- At the last tile it is live. -/
theorem live0_3 : ∀ t : Fin cfg0.N, isLast (grid0.coords t) → cfg0.idle 3 (grid0.coords t) = false := by decide +kernel

/-! ## The memrefs the body is called with -/

/-- One staging buffer of the output window and the accumulator scratch, as views: contents are stated through them. -/
abbrev outView : View sig .tc .vmem S1024x1 .f32 := (Memref.whole cc0_stg3_0 : Memref sig .tc .vmem S1024x1 .f32).view
abbrev accM : Memref sig .tc .vmem S1024x1 .f32 := Memref.whole cc0_scratch0
abbrev accView : View sig .tc .vmem S1024x1 .f32 := accM.view
/-- Each window's current staging memref at point `t`, as the pipeline passes it, and its wholeness. -/
abbrev mr0_0 (t : Fin cfg0.N) : Memref sig .tc .vmem S1024x128 .f32 := win0_0.stage (cfg0.slots t 0)
abbrev hmr0_0 (t : Fin cfg0.N) : (mr0_0 t).IsWhole := hstage0_0 ((cfg0.slots t 0).cast nbuf0_0)
abbrev mr0_1 (t : Fin cfg0.N) : Memref sig .tc .vmem S1024x128 .f32 := win0_1.stage (cfg0.slots t 1)
abbrev hmr0_1 (t : Fin cfg0.N) : (mr0_1 t).IsWhole := hstage0_1 ((cfg0.slots t 1).cast nbuf0_1)
abbrev mr0_2 (t : Fin cfg0.N) : Memref sig .tc .vmem S1024x1024 .i32 := win0_2.stage (cfg0.slots t 2)
abbrev hmr0_2 (t : Fin cfg0.N) : (mr0_2 t).IsWhole := hstage0_2 ((cfg0.slots t 2).cast nbuf0_2)
abbrev mr0_3 (t : Fin cfg0.N) : Memref sig .tc .vmem S1024x1 .f32 := win0_3.stage (cfg0.slots t 3)
abbrev hmr0_3 (t : Fin cfg0.N) : (mr0_3 t).IsWhole := hstage0_3 ((cfg0.slots t 3).cast nbuf0_3)

/-- What the launch hands the region beside its windows — the scoped buffers no window stages and the generator
    register — with the accumulator scratch split off as a memref owned at some contents, the other regions' staging
    buffers left as they come. -/
theorem restSplit0 (c : Dev nD) :
    (Pipeline.ΦA spec0 c : sProp 𝕄)
      = iprop(iprop((∃ d, owns (c : Thread nD τ) accM fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f)) ∗ (∃ r, prngReg c r)) := by
  unfold Pipeline.ΦA; rw [scopedRest0_eq]; simp only [accM, owns_whole]; try rfl

end Cert.KernelIdeal.Hand

end
-- ==== Proof.KI.LogZRunFirst.lean ====
/-
  Pass 1's body at the FIRST tile: the accumulator is zeroed, then the tile's masked row sums are added to it; the output
  block is not touched. The pieces the accumulator ends with are found by running the body.
-/
import proofs.«161532_j78700980731974_1_alg».proof.Proof.KI.LogZBase

-- membership in rectangles of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in the first case, on whole staging memrefs: the three inputs at their contents, the idle output at
    contents handed back untouched, the accumulator at anything; it ends with the accumulator's pieces written. -/
noncomputable def runFirst (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : isFirst i) (hc1 : ¬isLast i)
    (x0 : Vec F S1024x128 .f32) (x1 : Vec F S1024x128 .f32) (x2 : Vec F S1024x1024 .i32) :
    Σ' (L3 : List (View.Piece (Elt F) S1024x1 .f32)), { LS : List (View.Piece (Elt F) S1024x1 .f32) //
      ∀ (xi3 : Vec F S1024x1 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare xi3 ∗ (∃ d, owns (c : Thread nD τ) a5 fullShare d)
            ∗ (iprop(owns (c : Thread nD τ) a1 fullShare x0 ∗ owns (c : Thread nD τ) a2 fullShare x1 ∗ owns (c : Thread nD τ) a3 fullShare x2 ∗ owns (c : Thread nD τ) a4 fullShare xi3 ∗ (∃ f, a5.view.loc (c : Thread nD τ) ↦[a5.view.set]{fullShare} a5.view.writes (Elt F) f LS)) -∗ K ⟨⟩))
          ⊢ wp frame (wpE (defs₀ (F := F)) Variants.none c none) E (cc0__logz_kernel i a1 h1 a2 h2 a3 h3 a4 h4 a5 h5) K } := by
  refine ⟨[], ?_, fun xi3 E K => ?run⟩
  case run =>
    simp only [cc0__logz_kernel_eq_skeleton]; unfold cc0__logz_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := h1.eq_unread hf0; obtain rfl := h2.eq_unread hf1; obtain rfl := h3.eq_unread hf2; obtain rfl := h4.eq_unread hf3
    sl_exec (disch := first | exact hc0 | exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    iexists _; iexact HS

end Cert.KernelIdeal.Hand

end
-- ==== Proof.KI.LogZRunMid.lean ====
/-
  Pass 1's body at a MIDDLE tile: the tile's masked row sums are added to the accumulator the tile before left; the
  output block is not touched.
-/
import proofs.«161532_j78700980731974_1_alg».proof.Proof.KI.LogZBase

-- membership in rectangles of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in the middle case: the accumulator comes in at the contents `xs` the point before left. -/
noncomputable def runMid (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : ¬isFirst i) (hc1 : ¬isLast i)
    (x0 : Vec F S1024x128 .f32) (x1 : Vec F S1024x128 .f32) (x2 : Vec F S1024x1024 .i32) (xs : Vec F S1024x1 .f32) :
    Σ' (L3 : List (View.Piece (Elt F) S1024x1 .f32)), { LS : List (View.Piece (Elt F) S1024x1 .f32) //
      ∀ (xi3 : Vec F S1024x1 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare xi3 ∗ owns (c : Thread nD τ) a5 fullShare xs
            ∗ (iprop(owns (c : Thread nD τ) a1 fullShare x0 ∗ owns (c : Thread nD τ) a2 fullShare x1 ∗ owns (c : Thread nD τ) a3 fullShare x2 ∗ owns (c : Thread nD τ) a4 fullShare xi3 ∗ (∃ f, a5.view.loc (c : Thread nD τ) ↦[a5.view.set]{fullShare} a5.view.writes (Elt F) f LS)) -∗ K ⟨⟩))
          ⊢ wp frame (wpE (defs₀ (F := F)) Variants.none c none) E (cc0__logz_kernel i a1 h1 a2 h2 a3 h3 a4 h4 a5 h5) K } := by
  refine ⟨[], ?_, fun xi3 E K => ?run⟩
  case run =>
    simp only [cc0__logz_kernel_eq_skeleton]; unfold cc0__logz_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := h1.eq_unread hf0; obtain rfl := h2.eq_unread hf1; obtain rfl := h3.eq_unread hf2; obtain rfl := h4.eq_unread hf3
    obtain rfl := h5.eq_unread hfs
    sl_exec (disch := first | exact hc0 | exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    iexists _; iexact HS

end Cert.KernelIdeal.Hand

end
-- ==== Proof.KI.LogZRunLast.lean ====
/-
  Pass 1's body at the LAST tile: the tile's masked row sums are added to the accumulator, and the logarithm of the total
  is stored into the output block.
-/
import proofs.«161532_j78700980731974_1_alg».proof.Proof.KI.LogZBase

-- membership in rectangles of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in the last case: the output block comes in at anything and ends with its pieces written. -/
noncomputable def runLast (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : ¬isFirst i) (hc1 : isLast i)
    (x0 : Vec F S1024x128 .f32) (x1 : Vec F S1024x128 .f32) (x2 : Vec F S1024x1024 .i32) (xs : Vec F S1024x1 .f32) :
    Σ' (L3 : List (View.Piece (Elt F) S1024x1 .f32)), { LS : List (View.Piece (Elt F) S1024x1 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ (∃ d, owns (c : Thread nD τ) a4 fullShare d) ∗ owns (c : Thread nD τ) a5 fullShare xs
            ∗ (iprop(owns (c : Thread nD τ) a1 fullShare x0 ∗ owns (c : Thread nD τ) a2 fullShare x1 ∗ owns (c : Thread nD τ) a3 fullShare x2 ∗ (∃ f, a4.view.loc (c : Thread nD τ) ↦[a4.view.set]{fullShare} a4.view.writes (Elt F) f L3) ∗ (∃ f, a5.view.loc (c : Thread nD τ) ↦[a5.view.set]{fullShare} a5.view.writes (Elt F) f LS)) -∗ K ⟨⟩))
          ⊢ wp frame (wpE (defs₀ (F := F)) Variants.none c none) E (cc0__logz_kernel i a1 h1 a2 h2 a3 h3 a4 h4 a5 h5) K } := by
  refine ⟨?_, ?_, fun E K => ?run⟩
  case run =>
    simp only [cc0__logz_kernel_eq_skeleton]; unfold cc0__logz_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h1.eq_unread hf0; obtain rfl := h2.eq_unread hf1; obtain rfl := h3.eq_unread hf2
    obtain rfl := h5.eq_unread hfs
    sl_exec (disch := first | exact hc0 | exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]; · iexists _; iexact H3
    iexists _; iexact HS

end Cert.KernelIdeal.Hand

end
-- ==== Proof.KI.LogZPass.lean ====
/-
  Pass 1 — the normalizer — as a region entered at buffer contents `V`: what the accumulator and the output block hold
  after each tile, the proof data, and the body's obligation at every grid point.

  After tile 0 the accumulator holds the first case's result on the tile's blocks; after tile n + 1 the middle (or, at
  tile 31, the last) case's result on that tile's blocks and what tile n left. The output block holds the logarithm of
  the accumulated total after tile 31 and is untouched before. The region's invariant between tiles is: the
  accumulator scratch at exactly what the tile before left (anything before the first tile), the other scoped buffers
  and the generator register at something.
-/
import proofs.«161532_j78700980731974_1_alg».proof.Proof.KI.LogZRunFirst
import proofs.«161532_j78700980731974_1_alg».proof.Proof.KI.LogZRunMid
import proofs.«161532_j78700980731974_1_alg».proof.Proof.KI.LogZRunLast

-- membership in rectangles of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first case's accumulator pieces tile the scratch, so they cover it. -/
theorem accCoverFirst (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : isFirst i) (hc1 : ¬isLast i) (x0 : Vec F S1024x128 .f32) (x1 : Vec F S1024x128 .f32) (x2 : Vec F S1024x1024 .i32) (y : S1024x1.Idx) :
    ∃ pc ∈ (runFirst c i a1 h1 a2 h2 a3 h3 a4 h4 a5 h5 hc0 hc1 x0 x1 x2).2.1, y ∈ pc.1.set :=
  View.cover_of_tiledL (runFirst c i a1 h1 a2 h2 a3 h3 a4 h4 a5 h5 hc0 hc1 x0 x1 x2).2.1 S1024x1.size (by sl_kernel_rfl) y
/-- What the first case leaves in the accumulator: its pieces read back. -/
def accFirst (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : isFirst i) (hc1 : ¬isLast i) (x0 : Vec F S1024x128 .f32) (x1 : Vec F S1024x128 .f32) (x2 : Vec F S1024x1024 .i32) : Vec F S1024x1 .f32 :=
  accView.read (Elt F) (accView.writes (Elt F) accView.junk (runFirst c i a1 h1 a2 h2 a3 h3 a4 h4 a5 h5 hc0 hc1 x0 x1 x2).2.1)

theorem accCoverMid (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : ¬isFirst i) (hc1 : ¬isLast i) (x0 : Vec F S1024x128 .f32) (x1 : Vec F S1024x128 .f32) (x2 : Vec F S1024x1024 .i32) (xs : Vec F S1024x1 .f32) (y : S1024x1.Idx) :
    ∃ pc ∈ (runMid c i a1 h1 a2 h2 a3 h3 a4 h4 a5 h5 hc0 hc1 x0 x1 x2 xs).2.1, y ∈ pc.1.set :=
  View.cover_of_tiledL (runMid c i a1 h1 a2 h2 a3 h3 a4 h4 a5 h5 hc0 hc1 x0 x1 x2 xs).2.1 S1024x1.size (by sl_kernel_rfl) y
/-- What a middle case leaves in the accumulator, over what the tile before left (`xs`). -/
def accMid (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : ¬isFirst i) (hc1 : ¬isLast i) (x0 : Vec F S1024x128 .f32) (x1 : Vec F S1024x128 .f32) (x2 : Vec F S1024x1024 .i32) (xs : Vec F S1024x1 .f32) : Vec F S1024x1 .f32 :=
  accView.read (Elt F) (accView.writes (Elt F) accView.junk (runMid c i a1 h1 a2 h2 a3 h3 a4 h4 a5 h5 hc0 hc1 x0 x1 x2 xs).2.1)

theorem accCoverLast (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : ¬isFirst i) (hc1 : isLast i) (x0 : Vec F S1024x128 .f32) (x1 : Vec F S1024x128 .f32) (x2 : Vec F S1024x1024 .i32) (xs : Vec F S1024x1 .f32) (y : S1024x1.Idx) :
    ∃ pc ∈ (runLast c i a1 h1 a2 h2 a3 h3 a4 h4 a5 h5 hc0 hc1 x0 x1 x2 xs).2.1, y ∈ pc.1.set :=
  View.cover_of_tiledL (runLast c i a1 h1 a2 h2 a3 h3 a4 h4 a5 h5 hc0 hc1 x0 x1 x2 xs).2.1 S1024x1.size (by sl_kernel_rfl) y
def accLast (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : ¬isFirst i) (hc1 : isLast i) (x0 : Vec F S1024x128 .f32) (x1 : Vec F S1024x128 .f32) (x2 : Vec F S1024x1024 .i32) (xs : Vec F S1024x1 .f32) : Vec F S1024x1 .f32 :=
  accView.read (Elt F) (accView.writes (Elt F) accView.junk (runLast c i a1 h1 a2 h2 a3 h3 a4 h4 a5 h5 hc0 hc1 x0 x1 x2 xs).2.1)
/-- The last case's output pieces tile the output block. -/
theorem outCoverLast (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : ¬isFirst i) (hc1 : isLast i) (x0 : Vec F S1024x128 .f32) (x1 : Vec F S1024x128 .f32) (x2 : Vec F S1024x1024 .i32) (xs : Vec F S1024x1 .f32) (y : S1024x1.Idx) :
    ∃ pc ∈ (runLast c i a1 h1 a2 h2 a3 h3 a4 h4 a5 h5 hc0 hc1 x0 x1 x2 xs).1, y ∈ pc.1.set :=
  View.cover_of_tiledL (runLast c i a1 h1 a2 h2 a3 h3 a4 h4 a5 h5 hc0 hc1 x0 x1 x2 xs).1 S1024x1.size (by sl_kernel_rfl) y
/-- What the last case leaves in the output block. -/
def outLast (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : ¬isFirst i) (hc1 : isLast i) (x0 : Vec F S1024x128 .f32) (x1 : Vec F S1024x128 .f32) (x2 : Vec F S1024x1024 .i32) (xs : Vec F S1024x1 .f32) : Vec F S1024x1 .f32 :=
  outView.read (Elt F) (outView.writes (Elt F) outView.junk (runLast c i a1 h1 a2 h2 a3 h3 a4 h4 a5 h5 hc0 hc1 x0 x1 x2 xs).1)

/-- A placeholder for the output block's contents at the points where it is idle: nothing consults it there (the block
    is neither written back nor read at the next point). -/
def noOut : Vec F S1024x1 .f32 := outView.read (Elt F) outView.junk

/-! ## The accumulation, tile by tile -/

/-- What the output block and the accumulator hold after the body at tile `n` (a pair: output, accumulator). -/
def stateAt (c : Dev nD) : (n : ℕ) → n < cfg0.N → Vec F S1024x1 .f32 × Vec F S1024x1 .f32
  | 0, hn => (noOut, accFirst c (grid0.coords ⟨0, hn⟩) (mr0_0 ⟨0, hn⟩) (hmr0_0 ⟨0, hn⟩) (mr0_1 ⟨0, hn⟩) (hmr0_1 ⟨0, hn⟩) (mr0_2 ⟨0, hn⟩) (hmr0_2 ⟨0, hn⟩) (mr0_3 ⟨0, hn⟩) (hmr0_3 ⟨0, hn⟩) accM (Memref.isWhole_whole _) ((isFirst_iff ⟨0, hn⟩).mpr rfl) (fun h => absurd ((isLast_iff ⟨0, hn⟩).mp h) (show ¬(0 : ℕ) = 31 by decide)) (iblk0 V c 0 ⟨0, hn⟩) (iblk0 V c 1 ⟨0, hn⟩) (iblk0 V c 2 ⟨0, hn⟩))
  | n + 1, hn =>
    if hl : n + 1 = 31 then
      (outLast c (grid0.coords ⟨n + 1, hn⟩) (mr0_0 ⟨n + 1, hn⟩) (hmr0_0 ⟨n + 1, hn⟩) (mr0_1 ⟨n + 1, hn⟩) (hmr0_1 ⟨n + 1, hn⟩) (mr0_2 ⟨n + 1, hn⟩) (hmr0_2 ⟨n + 1, hn⟩) (mr0_3 ⟨n + 1, hn⟩) (hmr0_3 ⟨n + 1, hn⟩) accM (Memref.isWhole_whole _) (fun h => Nat.succ_ne_zero n ((isFirst_iff ⟨n + 1, hn⟩).mp h)) ((isLast_iff ⟨n + 1, hn⟩).mpr hl) (iblk0 V c 0 ⟨n + 1, hn⟩) (iblk0 V c 1 ⟨n + 1, hn⟩) (iblk0 V c 2 ⟨n + 1, hn⟩) (stateAt c n (Nat.lt_of_succ_lt hn)).2,
       accLast c (grid0.coords ⟨n + 1, hn⟩) (mr0_0 ⟨n + 1, hn⟩) (hmr0_0 ⟨n + 1, hn⟩) (mr0_1 ⟨n + 1, hn⟩) (hmr0_1 ⟨n + 1, hn⟩) (mr0_2 ⟨n + 1, hn⟩) (hmr0_2 ⟨n + 1, hn⟩) (mr0_3 ⟨n + 1, hn⟩) (hmr0_3 ⟨n + 1, hn⟩) accM (Memref.isWhole_whole _) (fun h => Nat.succ_ne_zero n ((isFirst_iff ⟨n + 1, hn⟩).mp h)) ((isLast_iff ⟨n + 1, hn⟩).mpr hl) (iblk0 V c 0 ⟨n + 1, hn⟩) (iblk0 V c 1 ⟨n + 1, hn⟩) (iblk0 V c 2 ⟨n + 1, hn⟩) (stateAt c n (Nat.lt_of_succ_lt hn)).2)
    else
      (noOut, accMid c (grid0.coords ⟨n + 1, hn⟩) (mr0_0 ⟨n + 1, hn⟩) (hmr0_0 ⟨n + 1, hn⟩) (mr0_1 ⟨n + 1, hn⟩) (hmr0_1 ⟨n + 1, hn⟩) (mr0_2 ⟨n + 1, hn⟩) (hmr0_2 ⟨n + 1, hn⟩) (mr0_3 ⟨n + 1, hn⟩) (hmr0_3 ⟨n + 1, hn⟩) accM (Memref.isWhole_whole _) (fun h => Nat.succ_ne_zero n ((isFirst_iff ⟨n + 1, hn⟩).mp h)) (fun h => hl ((isLast_iff ⟨n + 1, hn⟩).mp h)) (iblk0 V c 0 ⟨n + 1, hn⟩) (iblk0 V c 1 ⟨n + 1, hn⟩) (iblk0 V c 2 ⟨n + 1, hn⟩) (stateAt c n (Nat.lt_of_succ_lt hn)).2)

/-- `stateAt` at the first tile. -/
theorem stateAt_first (c : Dev nD) (t : Fin cfg0.N) (h0 : t.val = 0) :
    stateAt V c t.val t.isLt = (noOut, accFirst c (grid0.coords t) (mr0_0 t) (hmr0_0 t) (mr0_1 t) (hmr0_1 t) (mr0_2 t) (hmr0_2 t) (mr0_3 t) (hmr0_3 t) accM (Memref.isWhole_whole _) ((isFirst_iff t).mpr h0) (fun h => absurd ((isLast_iff t).mp h) (by omega)) (iblk0 V c 0 t) (iblk0 V c 1 t) (iblk0 V c 2 t)) := by
  obtain ⟨n, hn⟩ := t
  cases n with
  | zero => rfl
  | succ n => exact absurd h0 (Nat.succ_ne_zero n)

/-- `stateAt` at a middle tile: over what the tile before left. -/
theorem stateAt_mid (c : Dev nD) (t : Fin cfg0.N) (h0 : ¬t.val = 0) (h1 : ¬t.val = 31) :
    stateAt V c t.val t.isLt = (noOut, accMid c (grid0.coords t) (mr0_0 t) (hmr0_0 t) (mr0_1 t) (hmr0_1 t) (mr0_2 t) (hmr0_2 t) (mr0_3 t) (hmr0_3 t) accM (Memref.isWhole_whole _) (fun h => h0 ((isFirst_iff t).mp h)) (fun h => h1 ((isLast_iff t).mp h)) (iblk0 V c 0 t) (iblk0 V c 1 t) (iblk0 V c 2 t) (stateAt V c (t.val - 1) (Nat.lt_of_le_of_lt (Nat.sub_le _ _) t.isLt)).2) := by
  obtain ⟨n, hn⟩ := t
  cases n with
  | zero => exact absurd rfl h0
  | succ n => exact (dif_neg h1).trans rfl

/-- `stateAt` at the last tile. -/
theorem stateAt_last (c : Dev nD) (t : Fin cfg0.N) (h0 : ¬t.val = 0) (h1 : t.val = 31) :
    stateAt V c t.val t.isLt = (outLast c (grid0.coords t) (mr0_0 t) (hmr0_0 t) (mr0_1 t) (hmr0_1 t) (mr0_2 t) (hmr0_2 t) (mr0_3 t) (hmr0_3 t) accM (Memref.isWhole_whole _) (fun h => h0 ((isFirst_iff t).mp h)) ((isLast_iff t).mpr h1) (iblk0 V c 0 t) (iblk0 V c 1 t) (iblk0 V c 2 t) (stateAt V c (t.val - 1) (Nat.lt_of_le_of_lt (Nat.sub_le _ _) t.isLt)).2,
      accLast c (grid0.coords t) (mr0_0 t) (hmr0_0 t) (mr0_1 t) (hmr0_1 t) (mr0_2 t) (hmr0_2 t) (mr0_3 t) (hmr0_3 t) accM (Memref.isWhole_whole _) (fun h => h0 ((isFirst_iff t).mp h)) ((isLast_iff t).mpr h1) (iblk0 V c 0 t) (iblk0 V c 1 t) (iblk0 V c 2 t) (stateAt V c (t.val - 1) (Nat.lt_of_le_of_lt (Nat.sub_le _ _) t.isLt)).2) := by
  obtain ⟨n, hn⟩ := t
  cases n with
  | zero => exact absurd rfl h0
  | succ n => exact (dif_pos h1).trans rfl

/-! ## The invariant between tiles -/

/-- The other regions' staging buffers, each whole at some contents: scoped buffers this region never touches. -/
abbrev otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

theorem restSplit0' (c : Dev nD) :
    (Pipeline.ΦA spec0 c : sProp 𝕄) = iprop(iprop((∃ d, owns (c : Thread nD τ) accM fullShare d) ∗ otherScoped c) ∗ (∃ r, prngReg c r)) :=
  restSplit0 c

/-- The region's invariant before tile `n`: before the first, whatever the launch hands over; afterwards the accumulator
    at what tile `n - 1` left in it. -/
def PhiS (c : Dev nD) : (n : ℕ) → n ≤ cfg0.N → sProp 𝕄
  | 0, _ => Pipeline.ΦA spec0 c
  | n + 1, hn => iprop(iprop(owns (c : Thread nD τ) accM fullShare ((stateAt V c n hn).2) ∗ otherScoped c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare ((stateAt V c n hn).2) ∗ otherScoped c) ∗ (∃ r, prngReg c r)) := rfl
theorem PhiS_pos (c : Dev nD) (n : ℕ) (h : n ≤ cfg0.N) (hz : n ≠ 0) :
    PhiS V c n h = iprop(iprop(owns (c : Thread nD τ) accM fullShare ((stateAt V c (n - 1) (by omega)).2) ∗ otherScoped c) ∗ (∃ r, prngReg c r)) := by
  cases n with
  | zero => exact absurd rfl hz
  | succ n => rfl

/-! ## The proof data -/

/-- The pipeline's proof data on core `c`: the arrays as the region finds them; after the body at tile `t` each input's
    buffer at its block and the output's at `stateAt`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (stateAt V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi_castSucc0 (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (stateAt V c t.val t.isLt).1 := by dsimp only [dat0]

theorem before0_0 (c : Dev nD) (t : Fin cfg0.N) (d) : (dat0 V c).before 0 t d = iblk0 V c 0 t :=
  inBefore0_0 V (dat0 V c) (A_eq0 V c 0) (after0_0 V c) t d
theorem before0_1 (c : Dev nD) (t : Fin cfg0.N) (d) : (dat0 V c).before 1 t d = iblk0 V c 1 t :=
  inBefore0_1 V (dat0 V c) (A_eq0 V c 1) (after0_1 V c) t d
theorem before0_2 (c : Dev nD) (t : Fin cfg0.N) (d) : (dat0 V c).before 2 t d = iblk0 V c 2 t :=
  inBefore0_2 V (dat0 V c) (A_eq0 V c 2) (after0_2 V c) t d

/-! ## The body obligation -/

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (mr0_0 t) fullShare ((dat0 V c).before 0 t d))
    ∗ (∃ d, owns (c : Thread nD τ) (mr0_1 t) fullShare ((dat0 V c).before 1 t d))
    ∗ (∃ d, owns (c : Thread nD τ) (mr0_2 t) fullShare ((dat0 V c).before 2 t d))
    ∗ (∃ d, owns (c : Thread nD τ) (mr0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (mr0_0 t) fullShare (iblk0 V c 0 t) := by
  unfold Dat.leavesExact; rw [live0_0 t, after0_0]
theorem leaves0_1 (c : Dev nD) (t : Fin cfg0.N) : (dat0 V c).leavesExact 1 t = owns (c : Thread nD τ) (mr0_1 t) fullShare (iblk0 V c 1 t) := by
  unfold Dat.leavesExact; rw [live0_1 t, after0_1]
theorem leaves0_2 (c : Dev nD) (t : Fin cfg0.N) : (dat0 V c).leavesExact 2 t = owns (c : Thread nD τ) (mr0_2 t) fullShare (iblk0 V c 2 t) := by
  unfold Dat.leavesExact; rw [live0_2 t, after0_2]

set_option maxHeartbeats 4800000 in
/-- The body at any tile: the inputs' memrefs hold their blocks; the closed forms say which case the tile is in; the
    invariant hands the body the accumulator at what the tile before left (at anything at the first tile) and takes it
    back at this tile's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 32 := lt_of_lt_of_eq t.isLt (show cfg0.N = 32 from N_0)
  by_cases h0 : t.val = 0
  · have h1 : ¬t.val = 31 := by omega
    rw [Dat.leavesExact_idle (dat0 V c) 3 t (idle0_3 t (fun h => h1 ((isLast_iff t).mp h))) (noFlush0_3 t (fun h => h1 ((isLast_iff t).mp h)))]
    rw [stateAt_first V c t h0]
    unfold accFirst; (try dsimp only)
    rw [Phi_castSucc0 V c t, PhiS_zero V c _ _ h0, restSplit0']
    iintro ⟨⟨⟨HS, Hoth⟩, Hg⟩, Ho, ⟨%d0, H0⟩, ⟨%d1, H1⟩, ⟨%d2, H2⟩, ⟨%d3, H3⟩⟩
    iapply ((runFirst c (grid0.coords t) _ _ _ _ _ _ _ _ _ _ ((isFirst_iff t).mpr h0) (fun h => absurd ((isLast_iff t).mp h) (by omega)) (iblk0 V c 0 t) (iblk0 V c 1 t) (iblk0 V c 2 t)).2.2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hoth Hg]
    · isplitl [HS Hoth]
      · isplitl [HS]
        · unfold owns; iexists _; isplitr
          swap; · iexact HS
          ipureintro; exact View.read_writes_of_cover _ _ _ _ _ (accCoverFirst c _ _ _ _ _ _ _ _ _ _ _ _ _ _ _ _)
        iexact Hoth
      iexact Hg
    isplitl [Ho]; · iexact Ho
    isplitl [H0]; · iexact H0
    isplitl [H1]; · iexact H1
    isplitl [H2]; · iexact H2
    iexists _; iexact H3
  · by_cases h1 : t.val = 31
    · rw [show (dat0 V c).leavesExact 3 t = owns (c : Thread nD τ) (mr0_3 t) fullShare ((dat0 V c).after 3 t) from by
        unfold Dat.leavesExact; rw [live0_3 t ((isLast_iff t).mpr h1)], after0_3]
      rw [stateAt_last V c t h0 h1]
      unfold outLast accLast; (try dsimp only)
      rw [Phi_castSucc0 V c t, PhiS_pos V c _ _ h0]
      iintro ⟨⟨⟨HS, Hoth⟩, Hg⟩, Ho, ⟨%d0, H0⟩, ⟨%d1, H1⟩, ⟨%d2, H2⟩, ⟨%d3, H3⟩⟩
      iapply ((runLast c (grid0.coords t) _ _ _ _ _ _ _ _ _ _ (fun h => h0 ((isFirst_iff t).mp h)) ((isLast_iff t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (accCoverLast c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast c _ _ _ _ _ _ _ _ _ _ _ _ _ _ _ _ _)
    · rw [Dat.leavesExact_idle (dat0 V c) 3 t (idle0_3 t (fun h => h1 ((isLast_iff t).mp h))) (noFlush0_3 t (fun h => h1 ((isLast_iff t).mp h)))]
      rw [stateAt_mid V c t h0 h1]
      unfold accMid; (try dsimp only)
      rw [Phi_castSucc0 V c t, PhiS_pos V c _ _ h0]
      iintro ⟨⟨⟨HS, Hoth⟩, Hg⟩, Ho, ⟨%d0, H0⟩, ⟨%d1, H1⟩, ⟨%d2, H2⟩, ⟨%d3, H3⟩⟩
      iapply ((runMid c (grid0.coords t) _ _ _ _ _ _ _ _ _ _ (fun h => h0 ((isFirst_iff t).mp h)) (fun h => h1 ((isLast_iff t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accCoverMid c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every tile. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first tile. -/
theorem phi_in0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last tile the invariant gives the same back: the accumulator's named contents are forgotten. -/
theorem phi_out0 (c : Dev nD) : (dat0 V c).Φ (Fin.last cfg0.N) ⊢ Pipeline.ΦA spec0 c := by
  have hN : cfg0.N = 32 := N_0
  rw [show (dat0 V c).Φ (Fin.last cfg0.N) = PhiS V c (Fin.last cfg0.N).val (Nat.le_of_lt_succ (Fin.last cfg0.N).isLt) from rfl,
    PhiS_pos V c _ _ (by rw [Fin.val_last]; omega), restSplit0']
  iintro ⟨⟨HS, Hoth⟩, Hg⟩
  isplitl [HS Hoth]
  · isplitl [HS]
    · iexists _; iexact HS
    iexact Hoth
  iexact Hg

end Cert.KernelIdeal.Hand

end
-- ==== Proof.KI.OutPass.lean ====
/-
  The second pass (the kernel that writes the masked log-probabilities) as one pipelined region, stated at ANY
  contents `V` of the core's buffers when the region is entered.

  At each of the 32 grid points the body reads four staged blocks — the embeddings (whole), one tile of 1024
  reference rows, the matching tile of 1024 mask columns, the log-normalizer column (whole) — and overwrites the
  staged output tile with one store of the whole block. So after the body the output's staging buffer is a function
  of the four input blocks alone (`outTile`), whatever it held before, and every input's buffer is as it was found.
  That is the whole content of the body obligation below.
-/
import proofs.«161532_j78700980731974_1_alg».proof.Proof.Gen.KernelIdeal.Launch
import proofs.«161532_j78700980731974_1_alg».proof.Proof.Gen.KernelIdeal.Skeleton
import proofs.«161532_j78700980731974_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show at a grid point -/

/-- The block of window `w` at grid point `t`: the window's rectangle there, read off the window's array as the
    region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds the window's block at EVERY point, also at a point where nothing was
    fetched: there the block index has not moved since the last fetch, and the body left the block in place. The four
    inputs one by one (the embeddings and the normalizer column are fetched once, at the first point; the row tile and
    the mask tile at every point — the statement is the same). Each holds for any proof data over `V`'s arrays whose
    body returns the block unchanged. -/

theorem stagedIn0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

theorem stagedIn1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

theorem stagedIn2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl)
      (fun t => by rw [hafter]; unfold Dat.blockOf iblk1; rw [hA]; try rfl) t d).trans
    (by unfold Dat.fetched Dat.blockOf iblk1; rw [hA]; try rfl)

theorem stagedIn3 {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl)
      (fun t => by rw [hafter]; unfold Dat.blockOf iblk1; rw [hA]; try rfl) t d).trans
    (by unfold Dat.fetched Dat.blockOf iblk1; rw [hA]; try rfl)

/-! ## What the body reads and writes -/

/-- The whole 1024 × 128 block (both the embeddings' load and the row tile's). -/
abbrev boxE : Rect S1024x128 := Rect.unit (s := S1024x128) ![0, 0] S1024x128.size inb_S1024x128_S1024x128_0_0
/-- The whole 1024 × 1024 block (the mask tile's load and the output tile's store). -/
abbrev boxT : Rect S1024x1024 := Rect.unit (s := S1024x1024) ![0, 0] S1024x1024.size inb_S1024x1024_S1024x1024_0_0
/-- The whole 1024 × 1 column (the normalizer's load). -/
abbrev boxZ : Rect S1024x1 := Rect.unit (s := S1024x1) ![0, 0] S1024x1.size inb_S1024x1_S1024x1_0_0

/-- The output tile's staging buffer after the body, as a function of the four input blocks: the body's single store,
    of the whole tile, of the select computed from the four loads. -/
def outTile (x0 x1 : Vec F S1024x128 .f32) (x2 : Vec F S1024x1024 .i32) (x3 : Vec F S1024x1 .f32) : Vec F S1024x1024 .f32 :=
  View.canon [⟨boxT, k1_pay1 (View.ld x0 boxE) (View.ld x1 boxE) (View.ld x2 boxT) (View.ld x3 boxZ)⟩]

/-- One store of the whole tile covers the tile: its rectangle starts at the origin, has the tile's extents and unit
    strides. -/
theorem outTile_cover (p : boxT.shape.Idx → Elt F .f32) (y : S1024x1024.Idx) :
    ∃ pc ∈ ([⟨boxT, p⟩] : List (View.Piece (Elt F) S1024x1024 .f32)), y ∈ pc.1.set :=
  View.cover_of_wholeMem [⟨boxT, p⟩] (by sl_whole_mem) y

/-! ## The body's triple -/

set_option maxHeartbeats 1000000 in
/-- The body on whole staging memrefs — the four inputs' at contents reading `x0 … x3`, the output's at anything — runs
    to a state where the inputs' are as found and the output's reads `outTile x0 x1 x2 x3`. The body also loads the
    output tile before overwriting it; that value is not used. -/
theorem sound_kernel1 (c : Dev nD) (E : Set ℕ) (i : grid1.Coords)
    (arg1 : Memref sig .tc .vmem S1024x128 .f32) (harg1 : arg1.IsWhole) (arg2 : Memref sig .tc .vmem S1024x128 .f32) (harg2 : arg2.IsWhole)
    (arg3 : Memref sig .tc .vmem S1024x1024 .i32) (harg3 : arg3.IsWhole) (arg4 : Memref sig .tc .vmem S1024x1 .f32) (harg4 : arg4.IsWhole)
    (arg5 : Memref sig .tc .vmem S1024x1024 .f32) (harg5 : arg5.IsWhole)
    (x0 x1 : Vec F S1024x128 .f32) (x2 : Vec F S1024x1024 .i32) (x3 : Vec F S1024x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outTile x0 x1 x2 x3)) -∗ K ⟨⟩))
      ⊢ wp frame (wpE (defs₀ (F := F)) Variants.none c none) E (cc1__out_kernel i arg1 harg1 arg2 harg2 arg3 harg3 arg4 harg4 arg5 harg5) K := by
  simp only [cc1__out_kernel_eq_skeleton]; unfold cc1__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outTile_cover _)

/-! ## The region's proof data -/

/-- The proof data of this pipeline on core `c`: the arrays as the region finds them; after the body at point `t` every
    input's buffer at its block and the output's at `outTile` of the four input blocks; the invariant the one that
    leaves everything outside the pipeline untouched; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outTile (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = outTile (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  stagedIn0 V (dat1 V c) (A_eq1 V c 0) (after1_0 V c) t d
theorem before1_1 (c : Dev nD) (t : Fin cfg1.N) (d) : (dat1 V c).before 1 t d = iblk1 V c 1 t :=
  stagedIn1 V (dat1 V c) (A_eq1 V c 1) (after1_1 V c) t d
theorem before1_2 (c : Dev nD) (t : Fin cfg1.N) (d) : (dat1 V c).before 2 t d = iblk1 V c 2 t :=
  stagedIn2 V (dat1 V c) (A_eq1 V c 2) (after1_2 V c) t d
theorem before1_3 (c : Dev nD) (t : Fin cfg1.N) (d) : (dat1 V c).before 3 t d = iblk1 V c 3 t :=
  stagedIn3 V (dat1 V c) (A_eq1 V c 3) (after1_3 V c) t d

/-! ## The body obligation -/

/-- What the pipeline hands the body at point `t`: the invariant, what the core owes, and each window's current staging
    buffer whole, at what the proof data says it holds before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body hands back: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple applies at those blocks; the invariant
    and what the core owes are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program as two regions run one after the other: pass 1 is entered at the launch contents and leaves the
  log-normalizer column in its result array; pass 2 is entered at what pass 1 left and leaves the masked
  log-probabilities in the program's result. No host operation stands between or around them. Every weakly fair
  execution terminates, and the final memory holds every unscoped buffer at the second boundary's contents: the
  arguments as launched (each is only read, through input windows), the result at what pass 2's write-backs leave.
-/
import proofs.«161532_j78700980731974_1_alg».proof.Proof.KI.LogZPass
import proofs.«161532_j78700980731974_1_alg».proof.Proof.KI.OutPass

-- membership in rectangles of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the three boundaries -/

/-- Core `c`'s buffers at launch (pass 1's entry). -/
abbrev W0 : Dev nD → Valuation τ sig (Elt F) := fun c b => m (c, b)
/-- The same read at the TensorCore's references. -/
abbrev E0 : (c : Dev nD) → (b : Ref sig .tc) → Buf (Elt F) ((c : Thread nD τ).loc b) := fun c b => W0 m c b
/-- At pass 1's exit (pass 2's entry): its arrays at what the pipeline leaves, every other buffer as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : (c : Dev nD) → (b : Ref sig .tc) → Buf (Elt F) ((c : Thread nD τ).loc b) := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- At pass 2's exit. -/
def W2 (c : Dev nD) : Valuation τ sig (Elt F) :=
  Pipeline.withArrays spec1 c (W1 m c) fun w => (dat1 (E1 m) c).arrAt w cfg1.N
theorem W2_arr (c : Dev nD) (w : Fin cfg1.W) :
    W2 m c (Proc.devRef .tc (Pipeline.arrRef spec1 w)) = (dat1 (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev E2 : (c : Dev nD) → (b : Ref sig .tc) → Buf (Elt F) ((c : Thread nD τ).loc b) := fun c b => W2 m c b
theorem hF1 (c : Dev nD) (w : Fin cfg1.W) : (dat1 (E1 m) c).arrAt w cfg1.N = E2 m c (Pipeline.arrRef spec1 w) :=
  (W2_arr m c w).symm
theorem hrest1 (c : Dev nD) : ∀ b, b ∉ Finset.univ.image (Pipeline.arrRef spec1) → E2 m c b = E1 m c b :=
  fun b hb => W2_of_ne m c b fun w e => hb (Finset.mem_image.mpr ⟨w, Finset.mem_univ _, e⟩)

/-! ### An argument is only ever read: it is an input window's array in both passes -/

theorem E1_arg0 (c : Dev nD) : E1 m c main_arg0 = m ((c : Thread nD τ).loc main_arg0) :=
  (W1_arr m c 0).trans (((dat0 (E0 m) c).arrAt_in 0 rfl _).trans (A_eq0 (E0 m) c 0))
theorem E1_arg1 (c : Dev nD) : E1 m c main_arg1 = m ((c : Thread nD τ).loc main_arg1) :=
  (W1_arr m c 1).trans (((dat0 (E0 m) c).arrAt_in 1 rfl _).trans (A_eq0 (E0 m) c 1))
theorem E1_arg2 (c : Dev nD) : E1 m c main_arg2 = m ((c : Thread nD τ).loc main_arg2) :=
  (W1_arr m c 2).trans (((dat0 (E0 m) c).arrAt_in 2 rfl _).trans (A_eq0 (E0 m) c 2))
/-- Pass 2 finds in pass 1's result array what pass 1's write-backs left there. -/
theorem E1_v0 (c : Dev nD) : E1 m c main_v0 = (dat0 (E0 m) c).arrAt 3 cfg0.N := W1_arr m c 3

theorem E2_arg0 (c : Dev nD) : E2 m c main_arg0 = m ((c : Thread nD τ).loc main_arg0) :=
  ((W2_arr m c 0).trans (((dat1 (E1 m) c).arrAt_in 0 rfl _).trans (A_eq1 (E1 m) c 0))).trans (E1_arg0 m c)
theorem E2_arg1 (c : Dev nD) : E2 m c main_arg1 = m ((c : Thread nD τ).loc main_arg1) :=
  ((W2_arr m c 1).trans (((dat1 (E1 m) c).arrAt_in 1 rfl _).trans (A_eq1 (E1 m) c 1))).trans (E1_arg1 m c)
theorem E2_arg2 (c : Dev nD) : E2 m c main_arg2 = m ((c : Thread nD τ).loc main_arg2) :=
  ((W2_arr m c 2).trans (((dat1 (E1 m) c).arrAt_in 2 rfl _).trans (A_eq1 (E1 m) c 2))).trans (E1_arg2 m c)
/-- The program's result ends at what pass 2's write-backs leave. -/
theorem E2_v1 (c : Dev nD) : E2 m c main_v1 = (dat1 (E1 m) c).arrAt 4 cfg1.N := W2_arr m c 4

/-! ## The proof data family and the thread state -/

/-- No pallas_call has a prefetched table. -/
abbrev adm : (p : Fin 2) → (pcfgs (F := F) p).Adm := fun p => (cfgs p).toPCfg_adm
/-- Each pipeline's proof data at its region's entry contents — a literal match on the pipeline. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W2 m c) ∗ ∃ r, prngReg c r)

/-! ## The regions as segments -/

-- a library lemma stated over the pinned configuration unifies with the printed one only when unification may unfold
-- plain definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec0 c ⊢ (pdats m 0 c).Φ 0 from phi_in0 (E0 m) c)
    unfold Pipeline.ΦA
    isplitl [Hr]; · iexact Hr
    iexact Hp
  hout c := by
    rw [Pipeline.ownSems0_none]
    have hback : (pdats m 0 c).Φ (Fin.last _) ⊢ iprop(Pipeline.scopedRest (Ix := Unit) (Name := ℕ) (U := UR sig nD τ) (Lvl := ℕ) (Val := Elt F) spec0 c ∗ ∃ r, prngReg c r) := phi_out0 (E0 m) c
    iintro HΦ
    ihave H' := hback $$ HΦ
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates, nothing
    faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (E2_arg0 m c),
     (h c _ (mem_uc main_arg1 (by decide))).trans (E2_arg1 m c),
     (h c _ (mem_uc main_arg2 (by decide))).trans (E2_arg2 m c)⟩) (run_all m ρ)

/-- The run with the result named: the result array ends at what pass 2's write-backs leave, pass 2 having found in
    pass 1's result array what pass 1's write-backs left. -/
theorem run_value : θ_run defs (onTc (τ := τ) (main (F := F))) ⟨m, fun _ => 0, ρ⟩ (fun r => ∀ c : Dev nD,
      r.2.mem ((c.tc : Thread nD τ).loc main_v1) = (dat1 (E1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (E2_v1 m c),
     (h c _ (mem_uc main_arg0 (by decide))).trans (E2_arg0 m c),
     (h c _ (mem_uc main_arg1 (by decide))).trans (E2_arg1 m c),
     (h c _ (mem_uc main_arg2 (by decide))).trans (E2_arg2 m c)⟩) (run_all m ρ)

end Cert.KernelIdeal.Hand

end
-- ==== Proof.Spec.lean ====
/-
  The mathematics both programs compute, as functions on the extended reals, index by index.

  For embeddings `x : 1024 × 128`, reference rows `r : 32768 × 128` and an integer mask `w : 1024 × 32768`:
    d(n, j)   = max (|x_n|² + |r_j|² − 2 · ⟨x_n, r_j⟩) 0        the clamped squared distance
    e(n, j)   = exp (−d(n, j)) where w(n, j) = 0, else 0         the masked Gaussian weight
    Z(n)      = Σ_j e(n, j)                                      the normalizer of row n
    out(n, j) = −d(n, j) − log Z(n) where w(n, j) = 0, else −∞   the masked log-probability
  The kernel accumulates Z(n) tile by tile (32 tiles of 1024 columns); the sum over all 32768 columns is the sum over
  the tiles of the sums inside each tile, because addition of extended reals is commutative and associative.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The embeddings' shape, the reference rows', the mask's (and the result's), the normalizer column's. -/
abbrev SE : Shape := ⟨2, ![1024, 128]⟩
abbrev SR : Shape := ⟨2, ![32768, 128]⟩
abbrev SM : Shape := ⟨2, ![1024, 32768]⟩
abbrev SZ : Shape := ⟨2, ![1024, 1]⟩

/-- The literal 2.0 both programs scale the inner product by (the same word on both sides; never evaluated). -/
abbrev two : EReal := Ideal.ofBits .f32 0x40000000#32
/-- The literal −∞ both programs write at masked positions. -/
abbrev negInf : EReal := Ideal.ofBits .f32 0xFF800000#32

/-- The bit "this mask word is zero" (the position is kept). -/
def keepBit (w : BitVec 32) : BitVec 1 := if w = 0#32 then 1#1 else 0#1

/-- |x_n|². -/
def sqE (x : SE.Idx → EReal) (n : Fin 1024) : EReal := ∑ k : Fin 128, x (ix2 n k) * x (ix2 n k)
/-- |r_j|². -/
def sqR (r : SR.Idx → EReal) (j : Fin 32768) : EReal := ∑ k : Fin 128, r (ix2 j k) * r (ix2 j k)
/-- ⟨x_n, r_j⟩. -/
def cross (x : SE.Idx → EReal) (r : SR.Idx → EReal) (n : Fin 1024) (j : Fin 32768) : EReal :=
  ∑ k : Fin 128, x (ix2 n k) * r (ix2 j k)

/-- The clamped squared distance d(n, j). -/
def dist (x : SE.Idx → EReal) (r : SR.Idx → EReal) (n : Fin 1024) (j : Fin 32768) : EReal :=
  max (sqE x n + sqR r j - two * cross x r n j) 0

/-- The masked weight e(n, j). -/
def weight (x : SE.Idx → EReal) (r : SR.Idx → EReal) (w : SM.Idx → BitVec 32) (n : Fin 1024) (j : Fin 32768) : EReal :=
  Scalar.select (keepBit (w (ix2 n j))) (Ideal.exp (-(dist x r n j))) 0

/-- The normalizer Z(n), one sum over all 32768 columns. -/
def Z (x : SE.Idx → EReal) (r : SR.Idx → EReal) (w : SM.Idx → BitVec 32) (n : Fin 1024) : EReal :=
  ∑ j : Fin 32768, weight x r w n j

/-- The log-normalizer column, as an array of shape 1024 × 1. -/
def logZ (x : SE.Idx → EReal) (r : SR.Idx → EReal) (w : SM.Idx → BitVec 32) : SZ.Idx → EReal :=
  fun i => Ideal.log (Z x r w (i 0))

/-- The masked log-probabilities given ANY log-normalizer column `lz` (what the second pass computes from the first
    pass's result). -/
def outOf (x : SE.Idx → EReal) (r : SR.Idx → EReal) (w : SM.Idx → BitVec 32) (lz : SZ.Idx → EReal) : SM.Idx → EReal :=
  fun i => Scalar.select (keepBit (w i)) (-(dist x r (i 0) (i 1)) - lz (ix2 (i 0) (0 : Fin 1))) negInf

/-- The result: the masked log-probabilities under the true normalizer. -/
def out (x : SE.Idx → EReal) (r : SR.Idx → EReal) (w : SM.Idx → BitVec 32) : SM.Idx → EReal :=
  outOf x r w (logZ x r w)

end Cert.Spec

end
-- ==== Proof.KI.Layout.lean ====
/-
  Layout operations of the tile's arithmetic read at an index given by coordinates: a vector seen as a column, a
  column repeated along the lanes, and the two one-axis sums of a matrix (along its rows, along its columns) as sums over
  the summed coordinate.
-/
import proofs.«161532_j78700980731974_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.ValueIdx Cert.KernelIdeal Cert.KernelIdeal.Gen

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The sum of a `1024 × 128` matrix along each row: at row `p`, the sum over the 128 columns. -/
theorem rowSum128_apply (src : FVec Ideal S1024x128 .f32) (h : S1024x128.Reduces [1] S1024) (hφ : FKind.Formats .f32)
    (hacc : (0x00000000#32 : BitVec 32) = FKind.add.neutral .f32 hφ) (p : Fin 1024) :
    multiReduction .add [1] S1024 src 0x00000000#32 h hφ hacc (ix1 p) = ∑ k : Fin 128, src (ix2 p k) := by
  refine (Ideal.multiReduction_add_single src 0x00000000#32 h hφ hacc (ix1 p)).trans ?_
  show ∑ k : Fin 128, src (h.lift (ix1 p) k) = _
  refine Finset.sum_congr rfl fun k _ => congrArg src (funext fun a => Fin.ext ?_)
  match a with
  | ⟨0, _⟩ => rfl
  | ⟨1, _⟩ => rfl

/-- The sum of a `128 × 1024` matrix along each column: at column `q`, the sum over the 128 rows. -/
theorem colSum128_apply (src : FVec Ideal S128x1024 .f32) (h : S128x1024.Reduces [0] S1024) (hφ : FKind.Formats .f32)
    (hacc : (0x00000000#32 : BitVec 32) = FKind.add.neutral .f32 hφ) (q : Fin 1024) :
    multiReduction .add [0] S1024 src 0x00000000#32 h hφ hacc (ix1 q) = ∑ k : Fin 128, src (ix2 k q) := by
  refine (Ideal.multiReduction_add_single src 0x00000000#32 h hφ hacc (ix1 q)).trans ?_
  show ∑ k : Fin 128, src (h.lift (ix1 q) k) = _
  refine Finset.sum_congr rfl fun k _ => congrArg src (funext fun a => Fin.ext ?_)
  match a with
  | ⟨0, _⟩ => rfl
  | ⟨1, _⟩ => rfl

/-- The sum of a `1024 × 1024` matrix along each row: at row `p`, the sum over the 1024 columns. -/
theorem rowSum1024_apply (src : FVec Ideal S1024x1024 .f32) (h : S1024x1024.Reduces [1] S1024) (hφ : FKind.Formats .f32)
    (hacc : (0x00000000#32 : BitVec 32) = FKind.add.neutral .f32 hφ) (p : Fin 1024) :
    multiReduction .add [1] S1024 src 0x00000000#32 h hφ hacc (ix1 p) = ∑ k : Fin 1024, src (ix2 p k) := by
  refine (Ideal.multiReduction_add_single src 0x00000000#32 h hφ hacc (ix1 p)).trans ?_
  show ∑ k : Fin 1024, src (h.lift (ix1 p) k) = _
  refine Finset.sum_congr rfl fun k _ => congrArg src (funext fun a => Fin.ext ?_)
  match a with
  | ⟨0, _⟩ => rfl
  | ⟨1, _⟩ => rfl

end Cert.KernelIdeal.Hand

end
-- ==== Proof.KI.DistTile.lean ====
/-
  The clamped squared distance of a tile, as both passes compute it from the embedding block `x0` (1024 × 128) and
  the tile of reference rows `x1` (1024 × 128): the column of row norms |x0_p|², the row of row norms |x1_q|² (taken
  on the transposed tile), the matrix of inner products ⟨x0_p, x1_q⟩ (a product with the transposed tile into a zero
  accumulator), and max (|x0_p|² + |x1_q|² − 2 · ⟨x0_p, x1_q⟩) 0. Read at (p, q) it is `distT x0 x1 p q`.
-/
import proofs.«161532_j78700980731974_1_alg».proof.Proof.Gen.KernelIdeal.Skeleton
import proofs.«161532_j78700980731974_1_alg».proof.Proof.Spec
import proofs.«161532_j78700980731974_1_alg».proof.Proof.KI.Layout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.ValueIdx Cert.KernelIdeal Cert.KernelIdeal.Gen

section AnyInstance
variable {F : FTy → Type} [FloatOps F]

/-- The column of the embedding block's row norms, |x0_p|² at (p, 0). -/
def sqCol (v0 : Vec F S1024x128 .f32) : FVec F S1024x1 .f32 :=
  have v2 : FVec F S1024x128 .f32 := mulf v0 v0
  have v3 : FVec F S1024 .f32 := multiReduction .add [1] S1024 v2 0x00000000#32 reduces_S1024x128_S1024 (.inl rfl) rfl
  have v4 : FVec F S1024x1 .f32 := shapeCast S1024x1 v3 shapeCasts_S1024_S1024x1
  v4

/-- The row of the reference tile's row norms, |x1_q|² at (0, q), summed down the columns of the transposed tile. -/
def sqRow (v1 : Vec F S1024x128 .f32) : FVec F S1x1024 .f32 :=
  have v5 : FVec F S128x1024 .f32 := transpose S128x1024 [1, 0] v1 transposes_S1024x128_p1_0_S128x1024
  have v6 : FVec F S128x1024 .f32 := mulf v5 v5
  have v7 : FVec F S1024 .f32 := multiReduction .add [0] S1024 v6 0x00000000#32 reduces_S128x1024_S1024 (.inl rfl) rfl
  have v8 : FVec F S1x1024 .f32 := shapeCast S1x1024 v7 shapeCasts_S1024_S1x1024
  v8

/-- The matrix of inner products ⟨x0_p, x1_q⟩: the block times the transposed tile, into a zero accumulator. -/
def crossTile (v0 v1 : Vec F S1024x128 .f32) : FVec F S1024x1024 .f32 :=
  have v5 : FVec F S128x1024 .f32 := transpose S128x1024 [1, 0] v1 transposes_S1024x128_p1_0_S128x1024
  have v9 : FVec F S1024x128 .bf16 := truncf .bf16 v0 bitsLt_bf16_f32
  have v10 : FVec F S128x1024 .bf16 := truncf .bf16 v5 bitsLt_bf16_f32
  have cst_4 : FVec F S1024x1024 .f32 := constant S1024x1024 .f32 0x00000000#32
  have v11 : FVec F S1024x1024 .f32 := matmul dot_S1024x128_S128x1024_S1024x1024_1_0_0_1_n_n none v9 v10 cst_4
  v11

/-- The tile of clamped squared distances. -/
def distTile (v0 v1 : Vec F S1024x128 .f32) : FVec F S1024x1024 .f32 :=
  have v12 : FVec F S1024x1024 .f32 := broadcastTo S1024x1024 (sqCol v0) broadcasts_S1024x1_S1024x1024
  have v13 : FVec F S1024x1024 .f32 := broadcastTo S1024x1024 (sqRow v1) broadcasts_S1x1024_S1024x1024
  have v14 : FVec F S1024x1024 .f32 := addf v12 v13
  have cst_5 : F .f32 := Scalar.ofBits .f32 0x40000000#32
  have v15 : FVec F S1024x1024 .f32 := broadcast S1024x1024 cst_5
  have v16 : FVec F S1024x1024 .f32 := mulf v15 (crossTile v0 v1)
  have v17 : FVec F S1024x1024 .f32 := subf v14 v16
  have cst_6 : F .f32 := Scalar.ofBits .f32 0x00000000#32
  have v18 : FVec F S1024x1024 .f32 := broadcast S1024x1024 cst_6
  have v19 : FVec F S1024x1024 .f32 := maximumf v17 v18
  v19

/-- The bit "this mask word is zero" of every position of a mask tile, as both passes compute it. -/
def keepTile (m : IVec S1024x1024 32) : IVec S1024x1024 1 :=
  xori (cmpi .ne m (broadcast S1024x1024 0#32)) (constantI S1024x1024 1 1#1)

/-- The second pass's stored tile, over the tile of distances. -/
theorem k1_pay1_eq (v0 v1 : Vec F S1024x128 .f32) (v20 : Vec F S1024x1024 .i32) (v26 : Vec F S1024x1 .f32) :
    k1_pay1 v0 v1 v20 v26
      = select (keepTile v20)
          (subf (subf (broadcast S1024x1024 (Scalar.ofBits .f32 0x00000000#32)) (distTile v0 v1))
            (broadcastTo S1024x1024 (shapeCast S1024x1 v26 shapeCasts_S1024x1_S1024x1) broadcasts_S1024x1_S1024x1024))
          (broadcast S1024x1024 (Scalar.ofBits .f32 0xFF800000#32)) := rfl

/-- The first pass's tile step, over the tile of distances. -/
theorem k0_pay4_eq (v3 v4 : Vec F S1024x128 .f32) (v23 : Vec F S1024x1024 .i32) (v32 : Vec F S1024x1 .f32) :
    k0_pay4 v3 v4 v23 v32
      = addf v32 (shapeCast S1024x1
          (multiReduction .add [1] S1024
            (select (keepTile v23)
              (exp (subf (broadcast S1024x1024 (Scalar.ofBits .f32 0x00000000#32)) (distTile v3 v4)))
              (broadcast S1024x1024 (Scalar.ofBits .f32 0x00000000#32)))
            0x00000000#32 reduces_S1024x1024_S1024 (.inl rfl) rfl)
          shapeCasts_S1024_S1024x1) := rfl

end AnyInstance

/-- The clamped squared distance between row p of the embedding block and row q of the tile of reference rows. -/
def distT (x0 x1 : Vec Ideal S1024x128 .f32) (p q : Fin 1024) : EReal :=
  max ((∑ k : Fin 128, x0 (ix2 p k) * x0 (ix2 p k)) + (∑ k : Fin 128, x1 (ix2 q k) * x1 (ix2 q k))
    - Cert.Spec.two * ∑ k : Fin 128, x0 (ix2 p k) * x1 (ix2 q k)) 0

/-- The column of row norms at (p, u): the sum of the squares along row p. -/
theorem sqCol_apply (x0 : Vec Ideal S1024x128 .f32) (p : Fin 1024) (u : Fin 1) :
    sqCol (F := Ideal) x0 (ix2 p u) = ∑ k : Fin 128, x0 (ix2 p k) * x0 (ix2 p k) :=
  (shapeCast_a_a1_apply _ _ p u).trans (rowSum128_apply _ _ _ _ p)

/-- The row of row norms at (u, q): the sum of the squares along row q of the tile. -/
theorem sqRow_apply (x1 : Vec Ideal S1024x128 .f32) (u : Fin 1) (q : Fin 1024) :
    sqRow (F := Ideal) x1 (ix2 u q) = ∑ k : Fin 128, x1 (ix2 q k) * x1 (ix2 q k) := by
  refine (shapeCast_a_1a_apply _ _ u q).trans ((colSum128_apply _ _ _ _ q).trans ?_)
  refine Finset.sum_congr rfl fun k _ => ?_
  have e := transpose_ix2_apply x1 transposes_S1024x128_p1_0_S128x1024 k q
  show transpose S128x1024 [1, 0] x1 transposes_S1024x128_p1_0_S128x1024 (ix2 k q)
      * transpose S128x1024 [1, 0] x1 transposes_S1024x128_p1_0_S128x1024 (ix2 k q) = _
  rw [e]

/-- On the block's side of the product the row is the result's row … -/
theorem dot_lhs0 (i : S1024x1024.Idx) (c : dot_S1024x128_S128x1024_S1024x1024_1_0_0_1_n_n.contr.Idx) :
    (dot_S1024x128_S128x1024_S1024x1024_1_0_0_1_n_n.lhsIdx i c 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl
/-- … and the column the contracted coordinate. -/
theorem dot_lhs1 (i : S1024x1024.Idx) (c : dot_S1024x128_S128x1024_S1024x1024_1_0_0_1_n_n.contr.Idx) :
    (dot_S1024x128_S128x1024_S1024x1024_1_0_0_1_n_n.lhsIdx i c 1).val = (c ⟨0, by decide⟩).val :=
  dot_S1024x128_S128x1024_S1024x1024_1_0_0_1_n_n.lhsIdx_val_of_single rfl i c
/-- On the transposed tile's side the row is the contracted coordinate … -/
theorem dot_rhs0 (i : S1024x1024.Idx) (c : dot_S1024x128_S128x1024_S1024x1024_1_0_0_1_n_n.contr.Idx) :
    (dot_S1024x128_S128x1024_S1024x1024_1_0_0_1_n_n.rhsIdx i c 0).val = (c ⟨0, by decide⟩).val :=
  dot_S1024x128_S128x1024_S1024x1024_1_0_0_1_n_n.rhsIdx_val_of_single rfl i c
/-- … and the column the result's column. -/
theorem dot_rhs1 (i : S1024x1024.Idx) (c : dot_S1024x128_S128x1024_S1024x1024_1_0_0_1_n_n.contr.Idx) :
    (dot_S1024x128_S128x1024_S1024x1024_1_0_0_1_n_n.rhsIdx i c 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- The matrix of inner products at (p, q): the sum over the 128 features of the products of row p of the block and
    row q of the tile. -/
theorem crossTile_apply (x0 x1 : Vec Ideal S1024x128 .f32) (p q : Fin 1024) :
    crossTile (F := Ideal) x0 x1 (ix2 p q) = ∑ k : Fin 128, x0 (ix2 p k) * x1 (ix2 q k) := by
  refine (Ideal.matmul_constant_zero_apply dot_S1024x128_S128x1024_S1024x1024_1_0_0_1_n_n none
    (truncf .bf16 x0 bitsLt_bf16_f32)
    (truncf .bf16 (transpose S128x1024 [1, 0] x1 transposes_S1024x128_p1_0_S128x1024) bitsLt_bf16_f32) (ix2 p q)).trans ?_
  refine (Equiv.sum_comp (contrEquiv1 dot_S1024x128_S128x1024_S1024x1024_1_0_0_1_n_n 128 rfl rfl).symm _).symm.trans ?_
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q)
      ((contrEquiv1 dot_S1024x128_S128x1024_S1024x1024_1_0_0_1_n_n 128 rfl rfl).symm k) = ix2 p k :=
    funext fun a => Fin.ext (by
      match a with
      | ⟨0, _⟩ => exact dot_lhs0 _ _
      | ⟨1, _⟩ => exact (dot_lhs1 _ _).trans hk)
  have er : dot_S1024x128_S128x1024_S1024x1024_1_0_0_1_n_n.rhsIdx (ix2 p q)
      ((contrEquiv1 dot_S1024x128_S128x1024_S1024x1024_1_0_0_1_n_n 128 rfl rfl).symm k) = ix2 k q :=
    funext fun a => Fin.ext (by
      match a with
      | ⟨0, _⟩ => exact (dot_rhs0 _ _).trans hk
      | ⟨1, _⟩ => exact dot_rhs1 _ _)
  show x0 (dot_S1024x128_S128x1024_S1024x1024_1_0_0_1_n_n.lhsIdx (ix2 p q)
        ((contrEquiv1 dot_S1024x128_S128x1024_S1024x1024_1_0_0_1_n_n 128 rfl rfl).symm k))
      * transpose S128x1024 [1, 0] x1 transposes_S1024x128_p1_0_S128x1024
          (dot_S1024x128_S128x1024_S1024x1024_1_0_0_1_n_n.rhsIdx (ix2 p q)
            ((contrEquiv1 dot_S1024x128_S128x1024_S1024x1024_1_0_0_1_n_n 128 rfl rfl).symm k)) = _
  rw [el, er, transpose_ix2_apply x1 transposes_S1024x128_p1_0_S128x1024 k q]

/-- The tile of clamped squared distances at (p, q). -/
theorem distTile_apply (x0 x1 : Vec Ideal S1024x128 .f32) (p q : Fin 1024) :
    distTile (F := Ideal) x0 x1 (ix2 p q) = distT x0 x1 p q := by
  have h1 : broadcastTo S1024x1024 (sqCol (F := Ideal) x0) broadcasts_S1024x1_S1024x1024 (ix2 p q)
      = ∑ k : Fin 128, x0 (ix2 p k) * x0 (ix2 p k) :=
    (broadcastTo_a1_ab_apply _ _ p q).trans (sqCol_apply x0 p 0)
  have h2 : broadcastTo S1024x1024 (sqRow (F := Ideal) x1) broadcasts_S1x1024_S1024x1024 (ix2 p q)
      = ∑ k : Fin 128, x1 (ix2 q k) * x1 (ix2 q k) :=
    (broadcastTo_1b_ab_apply _ _ p q).trans (sqRow_apply x1 0 q)
  have h3 := crossTile_apply x0 x1 p q
  show max ((broadcastTo S1024x1024 (sqCol (F := Ideal) x0) broadcasts_S1024x1_S1024x1024 (ix2 p q)
        + broadcastTo S1024x1024 (sqRow (F := Ideal) x1) broadcasts_S1x1024_S1024x1024 (ix2 p q))
      - Ideal.ofBits .f32 0x40000000#32 * crossTile (F := Ideal) x0 x1 (ix2 p q)) (Ideal.ofBits .f32 0x00000000#32) = _
  rw [h1, h2, h3, Ideal.ofBits_zero_f32]
  rfl

end Cert.KernelIdeal.Hand

end
-- ==== Proof.KI.Payloads.lean ====
/-
  The kernel's stored values read at an index. The first pass: the accumulator column cast to itself, its logarithm,
  the zero column, and the tile step (the accumulator plus the sum along the tile's 1024 columns of the masked
  weights exp (−d)). The second pass: the tile of masked log-probabilities −d − log Z, −∞ where masked. Here d is the
  clamped squared distance of the tile (`distT`), and a position is kept when its mask word is zero.
-/
import proofs.«161532_j78700980731974_1_alg».proof.Proof.Gen.KernelIdeal.Skeleton
import proofs.«161532_j78700980731974_1_alg».proof.Proof.Spec
import proofs.«161532_j78700980731974_1_alg».proof.Proof.KI.Layout
import proofs.«161532_j78700980731974_1_alg».proof.Proof.KI.DistTile
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-- The computed mask bit at a position: "the mask word is not zero", flipped, is "the mask word is zero". -/
theorem keepTile_apply (m : IVec S1024x1024 32) (i : S1024x1024.Idx) : keepTile m i = Cert.Spec.keepBit (m i) := by
  show BitVec.ofBool (m i != 0#32) ^^^ 1#1 = if m i = 0#32 then 1#1 else 0#1
  by_cases h : m i = 0#32
  · rw [h, if_pos rfl]; decide
  · have hb : (m i != 0#32) = true := bne_iff_ne.mpr h
    rw [hb, if_neg h]; decide

/-- The second pass's stored tile at (p, q): the masked log-probability. -/
theorem k1_pay1_apply (x0 x1 : Vec Ideal S1024x128 .f32) (x2 : Vec Ideal S1024x1024 .i32) (x3 : Vec Ideal S1024x1 .f32)
    (p q : Fin 1024) :
    k1_pay1 (F := Ideal) x0 x1 x2 x3 (ix2 p q)
      = Scalar.select (Cert.Spec.keepBit (x2 (ix2 p q))) (-(distT x0 x1 p q) - x3 (ix2 p (0 : Fin 1))) Cert.Spec.negInf := by
  rw [k1_pay1_eq]
  show Scalar.select (keepTile x2 (ix2 p q))
      ((Ideal.ofBits .f32 0x00000000#32 - distTile (F := Ideal) x0 x1 (ix2 p q))
        - broadcastTo S1024x1024 (shapeCast S1024x1 x3 shapeCasts_S1024x1_S1024x1) broadcasts_S1024x1_S1024x1024 (ix2 p q))
      (Ideal.ofBits .f32 0xFF800000#32) = _
  rw [keepTile_apply x2 (ix2 p q), distTile_apply, Ideal.ofBits_zero_f32, zero_sub,
    broadcastTo_a1_ab_apply (shapeCast S1024x1 x3 shapeCasts_S1024x1_S1024x1) broadcasts_S1024x1_S1024x1024 p q,
    shapeCast_self x3 shapeCasts_S1024x1_S1024x1]

/-- The first pass's tile step at row p: the accumulator plus the sum of the tile's masked weights along the row. -/
theorem k0_pay4_apply (x0 x1 : Vec Ideal S1024x128 .f32) (x2 : Vec Ideal S1024x1024 .i32) (acc : Vec Ideal S1024x1 .f32)
    (p : Fin 1024) :
    k0_pay4 (F := Ideal) x0 x1 x2 acc (ix2 p (0 : Fin 1))
      = acc (ix2 p (0 : Fin 1))
        + ∑ q : Fin 1024, Scalar.select (Cert.Spec.keepBit (x2 (ix2 p q))) (Ideal.exp (-(distT x0 x1 p q))) 0 := by
  rw [k0_pay4_eq]
  refine congrArg (acc (ix2 p (0 : Fin 1)) + ·) ?_
  refine (shapeCast_a_a1_apply _ _ p 0).trans ((rowSum1024_apply _ _ _ _ p).trans ?_)
  refine Finset.sum_congr rfl fun q _ => ?_
  show Scalar.select (keepTile x2 (ix2 p q))
      (Ideal.exp (Ideal.ofBits .f32 0x00000000#32 - distTile (F := Ideal) x0 x1 (ix2 p q)))
      (Ideal.ofBits .f32 0x00000000#32) = _
  rw [keepTile_apply x2 (ix2 p q), distTile_apply, Ideal.ofBits_zero_f32, zero_sub]

/-- The accumulator column cast to its own shape is itself. -/
theorem k0_pay1_apply (v : FVec Ideal S1024x1 .f32) (i : S1024x1.Idx) : k0_pay1 (F := Ideal) v i = v i :=
  congrFun (shapeCast_self v shapeCasts_S1024x1_S1024x1) i

/-- The stored log-normalizer is the logarithm of the accumulator, entry by entry. -/
theorem k0_pay2_apply (v : Vec Ideal S1024x1 .f32) (i : S1024x1.Idx) : k0_pay2 (F := Ideal) v i = Ideal.log (v i) := rfl

/-- The column the first tile starts from is zero. -/
theorem k0_pay3_apply (i : S1024x1.Idx) : k0_pay3 (F := Ideal) i = 0 :=
  (congrFun (shapeCast_self (broadcast S1024x1 (Scalar.ofBits (F := Ideal) .f32 0x00000000#32))
    shapeCasts_S1024x1_S1024x1) i).trans Ideal.ofBits_zero_f32

end Cert.KernelIdeal.Hand

end
-- ==== Proof.KI.OutValue.lean ====
/-
  The second pass's result as an array: after the region, the output array holds the masked log-probabilities

      out(n, j) = −d(n, j) − lz(n)   where the mask word at (n, j) is zero,   −∞ elsewhere,

  of the three argument arrays and of WHATEVER normalizer column `lz` the region finds in the fourth window's array
  (the specification's `outOf`). Three steps: the tile the body leaves is the stored payload, entry by entry; at grid
  point `t` the four input blocks are the embeddings, reference rows 1024 t … 1024 t + 1023, mask columns
  1024 t … 1024 t + 1023 and the normalizer column, so the tile written back at `t` is columns
  1024 t … 1024 t + 1023 of `outOf`; and the 32 tiles cover the 32768 columns (column `j` lies in tile `j / 1024`).
-/
import proofs.«161532_j78700980731974_1_alg».proof.Proof.KI.OutPass
import proofs.«161532_j78700980731974_1_alg».proof.Proof.Spec
import proofs.«161532_j78700980731974_1_alg».proof.Proof.KI.Payloads
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The output tile at an index -/

/-- The origin of a rank-2 block, as the constant function. -/
theorem origin2 : (![0, 0] : Fin 2 → Nat) = fun _ => 0 := funext fun a => by fin_cases a <;> rfl

/-- The body's one store fills the whole tile and its loads read whole blocks, so the tile after the body is the
    payload of the four blocks, entry by entry. -/
theorem outTile_apply (x0 x1 : Vec Ideal S1024x128 .f32) (x2 : Vec Ideal S1024x1024 .i32) (x3 : Vec Ideal S1024x1 .f32)
    (p q : Fin 1024) :
    outTile (F := Ideal) x0 x1 x2 x3 (ix2 p q)
      = Scalar.select (Cert.Spec.keepBit (x2 (ix2 p q))) (-(distT x0 x1 p q) - x3 (ix2 p (0 : Fin 1))) Cert.Spec.negInf := by
  unfold outTile
  rw [View.canon_unit_zero origin2]
  simp only [View.ld_unit_zero (S := S1024x128) origin2, View.ld_unit_zero (S := S1024x1024) origin2,
    View.ld_unit_zero (S := S1024x1) origin2]
  exact k1_pay1_apply x0 x1 x2 x3 p q

/-- If the four blocks are the parts of the whole arrays that row `p` and column `J` need — row `p` of the
    embeddings, reference row `J`, the mask word at `(p, J)`, the normalizer of row `p` — then entry `(p, q)` of the
    tile is the specification's entry `(p, J)`. -/
theorem outTile_eq_outOf (x : Cert.Spec.SE.Idx → EReal) (r : Cert.Spec.SR.Idx → EReal) (w : Cert.Spec.SM.Idx → BitVec 32)
    (lz : Cert.Spec.SZ.Idx → EReal)
    (x0 x1 : Vec Ideal S1024x128 .f32) (x2 : Vec Ideal S1024x1024 .i32) (x3 : Vec Ideal S1024x1 .f32)
    (p q : Fin 1024) (J : Fin 32768)
    (h0 : ∀ k : Fin 128, x0 (ix2 p k) = x (ix2 p k))
    (h1 : ∀ k : Fin 128, x1 (ix2 q k) = r (ix2 J k))
    (h2 : x2 (ix2 p q) = w (ix2 p J))
    (h3 : x3 (ix2 p (0 : Fin 1)) = lz (ix2 p (0 : Fin 1))) :
    outTile (F := Ideal) x0 x1 x2 x3 (ix2 p q) = Cert.Spec.outOf x r w lz (ix2 p J) := by
  rw [outTile_apply]
  unfold Cert.Spec.outOf Cert.Spec.dist Cert.Spec.sqE Cert.Spec.sqR Cert.Spec.cross distT
  simp only [h0, h1, h2, h3]

/-! ## Where the windows sit at a grid point -/

/-- The printed index maps over the 32 grid points: the embeddings and the normalizer column are always block (0, 0);
    the row tile is block (t, 0) of the reference rows; the mask tile and the output tile are block (0, t). -/
theorem tileIndex : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = 0
    ∧ win1_4.index t (0 : Fin 2) = 0 ∧ win1_4.index t (1 : Fin 2) = t.val ∧ t.val < 32 :=
  (by decide +kernel : ∀ t : Fin grid1.N, _)

variable (V : (c : Dev nD) → (b : Ref sig .tc) → Buf (Elt Ideal) ((c : Thread nD τ).loc b))

/-- What point `t` writes back is tile `t` of the specification's array over the arrays as the region finds them. -/
theorem flushed_eq (c : Dev nD) (t : Fin cfg1.N) :
    (dat1 (F := Ideal) V c).flushed 4 t
      = ((cfg1.win 4).blk t).view.read (Elt Ideal)
          (Cert.Spec.outOf (V c main_arg0) (V c main_arg1) (V c main_arg2) (V c main_v0)) := by
  show (cfg1.win 4).cut (grid1.coords t) ((dat1 V c).after 4 t) = _
  rw [after1_4]
  obtain ⟨a00, a01, a10, a11, a20, a21, a30, a31, a40, a41, ht⟩ := tileIndex t
  funext j
  obtain ⟨p, q, rfl⟩ : ∃ (p q : Fin 1024), j = ix2 p q := ⟨j 0, j 1, eq_ix2 j⟩
  have hJ : 1024 * t.val + q.val < 32768 := by have := q.isLt; omega
  show outTile (iblk1 V c 0 t) (iblk1 V c 1 t) (iblk1 V c 2 t) (iblk1 V c 3 t) (ix2 p q)
    = Cert.Spec.outOf (V c main_arg0) (V c main_arg1) (V c main_arg2) (V c main_v0) (((cfg1.win 4).blk t).view.emb (ix2 p q))
  refine (outTile_eq_outOf (V c main_arg0) (V c main_arg1) (V c main_arg2) (V c main_v0)
    (iblk1 V c 0 t) (iblk1 V c 1 t) (iblk1 V c 2 t) (iblk1 V c 3 t) p q ⟨1024 * t.val + q.val, hJ⟩ ?_ ?_ ?_ ?_).trans ?_
  · -- the embeddings' block is the whole array
    intro k
    show V c main_arg0 (((cfg1.win 0).blk t).view.emb (ix2 p k)) = V c main_arg0 (ix2 p k)
    refine congrArg _ ?_
    funext a; apply Fin.ext
    match a with
    | ⟨0, _⟩ => show win1_0.index t (0 : Fin 2) * 1024 + 1 * p.val = p.val; omega
    | ⟨1, _⟩ => show win1_0.index t (1 : Fin 2) * 128 + 1 * k.val = k.val; omega
  · -- row q of the row tile is reference row 1024 t + q
    intro k
    show V c main_arg1 (((cfg1.win 1).blk t).view.emb (ix2 q k)) = V c main_arg1 (ix2 ⟨1024 * t.val + q.val, hJ⟩ k)
    refine congrArg _ ?_
    funext a; apply Fin.ext
    match a with
    | ⟨0, _⟩ => show win1_1.index t (0 : Fin 2) * 1024 + 1 * q.val = 1024 * t.val + q.val; omega
    | ⟨1, _⟩ => show win1_1.index t (1 : Fin 2) * 128 + 1 * k.val = k.val; omega
  · -- column q of the mask tile is mask column 1024 t + q
    show V c main_arg2 (((cfg1.win 2).blk t).view.emb (ix2 p q)) = V c main_arg2 (ix2 p ⟨1024 * t.val + q.val, hJ⟩)
    refine congrArg _ ?_
    funext a; apply Fin.ext
    match a with
    | ⟨0, _⟩ => show win1_2.index t (0 : Fin 2) * 1024 + 1 * p.val = p.val; omega
    | ⟨1, _⟩ => show win1_2.index t (1 : Fin 2) * 1024 + 1 * q.val = 1024 * t.val + q.val; omega
  · -- the normalizer column's block is the whole column
    show V c main_v0 (((cfg1.win 3).blk t).view.emb (ix2 p (0 : Fin 1))) = V c main_v0 (ix2 p (0 : Fin 1))
    refine congrArg _ ?_
    funext a; apply Fin.ext
    match a with
    | ⟨0, _⟩ => show win1_3.index t (0 : Fin 2) * 1024 + 1 * p.val = p.val; omega
    | ⟨1, _⟩ => show win1_3.index t (1 : Fin 2) * 1 + 1 * (0 : Fin 1).val = (0 : Fin 1).val; omega
  · -- entry (p, q) of the output tile sits at (p, 1024 t + q) of the output array
    refine congrArg _ ?_
    funext a; apply Fin.ext
    match a with
    | ⟨0, _⟩ => show p.val = win1_4.index t (0 : Fin 2) * 1024 + 1 * p.val; omega
    | ⟨1, _⟩ => show 1024 * t.val + q.val = win1_4.index t (1 : Fin 2) * 1024 + 1 * q.val; omega

/-! ## The tiles cover the array -/

/-- An index of the output array is in point `t`'s tile iff each coordinate is in the tile's range on its axis. -/
theorem mem_tile (t : Fin cfg1.N) (i : S1024x32768.Idx) :
    i ∈ ((cfg1.win 4).blk t).view.set ↔ ∀ a : Fin 2, win1_4.index t a * S1024x1024.size a ≤ (i a).val
      ∧ (i a).val < win1_4.index t a * S1024x1024.size a + S1024x1024.size a := by
  show i ∈ ((View.whole main_v1).slice (win1_4.rect t)).set ↔ _
  rw [View.set_slice_whole, Rect.mem_set_unit]
  exact Iff.rfl

/-- Column `j` of the output array is in the tile of point `j / 1024`, and every point writes its tile back. -/
theorem tiles_cover (i : S1024x32768.Idx) :
    ∃ t : Fin cfg1.N, (cfg1.win 4).flush t = true ∧ i ∈ ((cfg1.win 4).blk t).view.set := by
  have hi0 : (i 0).val < 1024 := (i 0).isLt
  have hi1 : (i 1).val < 32768 := (i 1).isLt
  have hN : cfg1.N = 32 := N_1
  let t : Fin cfg1.N := ⟨(i 1).val / 1024, by rw [hN]; omega⟩
  obtain ⟨-, -, -, -, -, -, -, -, a40, a41, -⟩ := tileIndex t
  have ht : t.val = (i 1).val / 1024 := rfl
  refine ⟨t, flush1_4 t, ?_⟩
  rw [mem_tile]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 1024 ≤ (i 1).val ∧ (i 1).val < win1_4.index t (1 : Fin 2) * 1024 + 1024; omega

/-! ## The output array after the region -/

/-- After the region the output array holds the specification's masked log-probabilities of the three argument arrays
    and of whatever normalizer column the region found: every tile written back is that array's tile, and the 32
    tiles cover it. -/
theorem out_final (c : Dev nD) :
    (dat1 (F := Ideal) V c).arrAt 4 cfg1.N
      = Cert.Spec.outOf (V c main_arg0) (V c main_arg1) (V c main_arg2) (V c main_v0) :=
  (dat1 (F := Ideal) V c).arrAt_eq_of_cover 4
    (Cert.Spec.outOf (V c main_arg0) (V c main_arg1) (V c main_arg2) (V c main_v0))
    (fun t _ => flushed_eq V c t) tiles_cover

end Cert.KernelIdeal.Hand

end
-- ==== Proof.KI.LogZPieces.lean ====
/-
  What each control case of pass 1's body leaves, as terms over the body's stored values: the pieces its run found,
  read back, are the stored values themselves, because every store covers its whole buffer and every load reads a whole
  buffer at what it holds. At the first tile the accumulator is stored twice (the zero column, then the sum): the later
  store wins, and the load between the two reads the zero column back.
-/
import proofs.«161532_j78700980731974_1_alg».proof.Proof.KI.LogZPass
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of a whole-buffer rectangle are zero. -/
theorem hz00 : (![0, 0] : Fin 2 → Nat) = fun _ => 0 := funext fun a => by fin_cases a <;> rfl

/-- A middle tile leaves the tile step of what the tile before left. -/
theorem accMid_eq (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : ¬isFirst i) (hc1 : ¬isLast i)
    (x0 : Vec F S1024x128 .f32) (x1 : Vec F S1024x128 .f32) (x2 : Vec F S1024x1024 .i32) (xs : Vec F S1024x1 .f32) :
    accMid c i a1 h1 a2 h2 a3 h3 a4 h4 a5 h5 hc0 hc1 x0 x1 x2 xs = k0_pay1 (k0_pay4 x0 x1 x2 xs) := by
  unfold accMid
  rw [View.read_writes_eq_canon _ _ _ (accCoverMid c i a1 h1 a2 h2 a3 h3 a4 h4 a5 h5 hc0 hc1 x0 x1 x2 xs)]
  unfold runMid
  dsimp only
  sl_unfold_words
  rw [View.canon_unit_zero hz00]
  simp only [View.readAt_eq_ld, h1.read_unread, h2.read_unread, h3.read_unread, h5.read_unread,
    View.ld_unit_zero (S := S1024x1) hz00, View.ld_unit_zero (S := S1024x128) hz00, View.ld_unit_zero (S := S1024x1024) hz00]

/-- The first tile leaves the tile step of the zero column. -/
theorem accFirst_eq (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : isFirst i) (hc1 : ¬isLast i)
    (x0 : Vec F S1024x128 .f32) (x1 : Vec F S1024x128 .f32) (x2 : Vec F S1024x1024 .i32) :
    accFirst c i a1 h1 a2 h2 a3 h3 a4 h4 a5 h5 hc0 hc1 x0 x1 x2 = k0_pay1 (k0_pay4 x0 x1 x2 (k0_pay3 (F := F))) := by
  unfold accFirst
  rw [View.read_writes_eq_canon _ _ _ (accCoverFirst c i a1 h1 a2 h2 a3 h3 a4 h4 a5 h5 hc0 hc1 x0 x1 x2)]
  unfold runFirst
  dsimp only
  sl_unfold_words
  rw [View.canon_cons_unit_zero (S := S1024x1) hz00]
  simp only [View.readAt_eq_ld, h1.read_unread, h2.read_unread, h3.read_unread, h5.read_unread,
    View.readCov_unit_zero (S := S1024x1) _ hz00,
    View.ld_unit_zero (S := S1024x1) hz00, View.ld_unit_zero (S := S1024x128) hz00, View.ld_unit_zero (S := S1024x1024) hz00]

/-- The last tile leaves, in the accumulator, the tile step of what the tile before left … -/
theorem accLast_eq (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : ¬isFirst i) (hc1 : isLast i)
    (x0 : Vec F S1024x128 .f32) (x1 : Vec F S1024x128 .f32) (x2 : Vec F S1024x1024 .i32) (xs : Vec F S1024x1 .f32) :
    accLast c i a1 h1 a2 h2 a3 h3 a4 h4 a5 h5 hc0 hc1 x0 x1 x2 xs = k0_pay1 (k0_pay4 x0 x1 x2 xs) := by
  unfold accLast
  rw [View.read_writes_eq_canon _ _ _ (accCoverLast c i a1 h1 a2 h2 a3 h3 a4 h4 a5 h5 hc0 hc1 x0 x1 x2 xs)]
  unfold runLast
  dsimp only
  sl_unfold_words
  rw [View.canon_unit_zero hz00]
  simp only [View.readAt_eq_ld, h1.read_unread, h2.read_unread, h3.read_unread, h5.read_unread,
    View.ld_unit_zero (S := S1024x1) hz00, View.ld_unit_zero (S := S1024x128) hz00, View.ld_unit_zero (S := S1024x1024) hz00]

/-- … and, in the output block, its logarithm: the load before the output's store reads the accumulator's last store back. -/
theorem outLast_eq (c : Dev nD) (i : grid0.Coords)
    (a1 : Memref sig .tc .vmem S1024x128 .f32) (h1 : a1.IsWhole) (a2 : Memref sig .tc .vmem S1024x128 .f32) (h2 : a2.IsWhole)
    (a3 : Memref sig .tc .vmem S1024x1024 .i32) (h3 : a3.IsWhole) (a4 : Memref sig .tc .vmem S1024x1 .f32) (h4 : a4.IsWhole)
    (a5 : Memref sig .tc .vmem S1024x1 .f32) (h5 : a5.IsWhole) (hc0 : ¬isFirst i) (hc1 : isLast i)
    (x0 : Vec F S1024x128 .f32) (x1 : Vec F S1024x128 .f32) (x2 : Vec F S1024x1024 .i32) (xs : Vec F S1024x1 .f32) :
    outLast c i a1 h1 a2 h2 a3 h3 a4 h4 a5 h5 hc0 hc1 x0 x1 x2 xs = k0_pay2 (k0_pay1 (k0_pay4 x0 x1 x2 xs)) := by
  unfold outLast
  rw [View.read_writes_eq_canon _ _ _ (outCoverLast c i a1 h1 a2 h2 a3 h3 a4 h4 a5 h5 hc0 hc1 x0 x1 x2 xs)]
  unfold runLast
  dsimp only
  sl_unfold_words
  rw [View.canon_unit_zero hz00]
  simp only [View.readAt_eq_ld, h1.read_unread, h2.read_unread, h3.read_unread, h5.read_unread,
    View.readCov_unit_zero (S := S1024x1) _ hz00,
    View.ld_unit_zero (S := S1024x1) hz00, View.ld_unit_zero (S := S1024x128) hz00, View.ld_unit_zero (S := S1024x1024) hz00]

end Cert.KernelIdeal.Hand

end
-- ==== Proof.TileSum.lean ====
/-
  The normalizer formed tile by tile.

  The 32768 columns are cut into 32 tiles of 1024: column 1024·t + q is column q of tile t. An accumulator that starts
  at 0, and to which each tile in turn adds the sum of its 1024 columns, ends at the sum over all columns, because
  addition of extended reals is commutative and associative:
      Σ_j f(j) = Σ_t Σ_q f(1024·t + q).
-/
import proofs.«161532_j78700980731974_1_alg».proof.Proof.Spec
import Mathlib.Algebra.BigOperators.Fin
import Mathlib.Data.Fintype.BigOperators
import Mathlib.Logic.Equiv.Fin.Basic

noncomputable section

open scoped BigOperators

namespace Cert.Spec

open Idealize.ShloMosaic Idealize.ShloMosaic.ValueIdx

/-- Column 1024·t + q: column q of tile t. -/
def col (t : Fin 32) (q : Fin 1024) : Fin 32768 :=
  ⟨1024 * t.val + q.val, by have := t.isLt; have := q.isLt; omega⟩

/-- The accumulator after tile n, as it is formed: 0 + g 0 after the first tile, then the previous value plus the
    tile's sum. -/
def accSeq (g : Fin 32 → EReal) : (n : ℕ) → n < 32 → EReal
  | 0, h => 0 + g ⟨0, h⟩
  | n + 1, h => accSeq g n (Nat.lt_of_succ_lt h) + g ⟨n + 1, h⟩

/-- After tile n the accumulator is the sum of the first n + 1 tiles' contributions. -/
theorem accSeq_eq_sum (g : Fin 32 → EReal) :
    ∀ (n : ℕ) (h : n < 32), accSeq g n h = ∑ i : Fin (n + 1), g ⟨i.val, by have := i.isLt; omega⟩
  | 0, h => by
    rw [accSeq, zero_add, Fin.sum_univ_one]
    rfl
  | n + 1, h => by
    rw [Fin.sum_univ_castSucc, accSeq, accSeq_eq_sum g n (Nat.lt_of_succ_lt h)]
    rfl

/-- After the last tile the accumulator is the sum of all 32 contributions. -/
theorem accSeq_last (g : Fin 32 → EReal) : accSeq g 31 (by decide) = ∑ t : Fin 32, g t :=
  accSeq_eq_sum g 31 (by decide)

/-- A sum over all columns is the sum over the tiles of the sums inside each tile. -/
theorem sum_cols (f : Fin 32768 → EReal) : ∑ j : Fin 32768, f j = ∑ t : Fin 32, ∑ q : Fin 1024, f (col t q) := by
  have e : ∀ (t : Fin 32) (q : Fin 1024), (finProdFinEquiv (t, q) : Fin (32 * 1024)) = col t q := fun t q =>
    Fin.ext (by show q.val + 1024 * t.val = 1024 * t.val + q.val; omega)
  calc ∑ j : Fin 32768, f j
      = ∑ p : Fin 32 × Fin 1024, f (finProdFinEquiv p) := (Equiv.sum_comp (finProdFinEquiv (m := 32) (n := 1024)) f).symm
    _ = ∑ t : Fin 32, ∑ q : Fin 1024, f (finProdFinEquiv (t, q)) := Fintype.sum_prod_type _
    _ = ∑ t : Fin 32, ∑ q : Fin 1024, f (col t q) :=
        Finset.sum_congr rfl fun t _ => Finset.sum_congr rfl fun q _ => congrArg f (e t q)

/-- The normalizer of row n is the accumulator after the last tile, each tile adding the sum of its weights. -/
theorem Z_tiles (x : SE.Idx → EReal) (r : SR.Idx → EReal) (w : SM.Idx → BitVec 32) (n : Fin 1024) :
    Z x r w n = accSeq (fun t => ∑ q : Fin 1024, weight x r w n (col t q)) 31 (by decide) := by
  rw [accSeq_last]
  exact sum_cols _

end Cert.Spec

end
-- ==== Proof.KI.LogZBlocks.lean ====
/-
  Pass 1's input blocks, read at an index. At point t of the 32-point grid the three input windows hold: the whole
  embeddings (block index (0, 0) of a 1024 × 128 block); rows 1024·t … 1024·t + 1023 of the reference rows (block index
  (t, 0) of a 1024 × 128 block); columns 1024·t … 1024·t + 1023 of the mask (block index (0, t) of a 1024 × 1024 block).
  An element of a block sits in the array, on each axis, at the block index times the block's size plus its own
  coordinate; so entry (q, k) of the rows' block is entry (1024·t + q, k) of the array, and entry (p, q) of the mask's
  block is entry (p, 1024·t + q).
-/
import proofs.«161532_j78700980731974_1_alg».proof.Proof.KI.LogZBase
import proofs.«161532_j78700980731974_1_alg».proof.Proof.TileSum
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

/-! ## The block indices, decided over the grid -/

/-- The embeddings' block index is (0, 0) at every point. -/
theorem index0_0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
/-- The reference rows' block index at point t is (t, 0). -/
theorem index0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- The mask's block index at point t is (0, t). -/
theorem index0_2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)

/-! ## A block entry is the array entry its rectangle says -/

/-- The embeddings' block is the embeddings. -/
theorem iblk0_0_apply (c : Dev nD) (t : Fin cfg0.N) (p : Fin 1024) (k : Fin 128) :
    (iblk0 V c 0 t : S1024x128.Idx → Elt F .f32) (ix2 p k) = (V c main_arg0 : S1024x128.Idx → Elt F .f32) (ix2 p k) := by
  obtain ⟨h0, h1⟩ := index0_0 t
  unfold iblk0
  rw [View.read_apply]
  show V c main_arg0 _ = V c main_arg0 _
  congr 1
  funext a
  apply Fin.ext
  match a with
  | ⟨0, _⟩ => show win0_0.index t 0 * 1024 + 1 * p.val = p.val; rw [h0]; omega
  | ⟨1, _⟩ => show win0_0.index t 1 * 128 + 1 * k.val = k.val; rw [h1]; omega

/-- Row q of the reference rows' block at point t is row 1024·t + q of the array. -/
theorem iblk0_1_apply (c : Dev nD) (t : Fin cfg0.N) (q : Fin 1024) (k : Fin 128) :
    (iblk0 V c 1 t : S1024x128.Idx → Elt F .f32) (ix2 q k)
      = (V c main_arg1 : S32768x128.Idx → Elt F .f32) (ix2 (Cert.Spec.col ⟨t.val, lt_of_lt_of_eq t.isLt N_0⟩ q) k) := by
  obtain ⟨h0, h1⟩ := index0_1 t
  unfold iblk0
  rw [View.read_apply]
  show V c main_arg1 _ = V c main_arg1 _
  congr 1
  funext a
  apply Fin.ext
  match a with
  | ⟨0, _⟩ => show win0_1.index t 0 * 1024 + 1 * q.val = 1024 * t.val + q.val; rw [h0]; omega
  | ⟨1, _⟩ => show win0_1.index t 1 * 128 + 1 * k.val = k.val; rw [h1]; omega

/-- Column q of the mask's block at point t is column 1024·t + q of the array. -/
theorem iblk0_2_apply (c : Dev nD) (t : Fin cfg0.N) (p q : Fin 1024) :
    (iblk0 V c 2 t : S1024x1024.Idx → Elt F .i32) (ix2 p q)
      = (V c main_arg2 : S1024x32768.Idx → Elt F .i32) (ix2 p (Cert.Spec.col ⟨t.val, lt_of_lt_of_eq t.isLt N_0⟩ q)) := by
  obtain ⟨h0, h1⟩ := index0_2 t
  unfold iblk0
  rw [View.read_apply]
  show V c main_arg2 _ = V c main_arg2 _
  congr 1
  funext a
  apply Fin.ext
  match a with
  | ⟨0, _⟩ => show win0_2.index t 0 * 1024 + 1 * p.val = p.val; rw [h0]; omega
  | ⟨1, _⟩ => show win0_2.index t 1 * 1024 + 1 * q.val = 1024 * t.val + q.val; rw [h1]; omega

end Cert.KernelIdeal.Hand

end
-- ==== Proof.KI.LogZValue.lean ====
/-
  Pass 1's value: what the accumulator holds after each tile, and the array of log-normalizers the region leaves.

  At tile t the body adds to the accumulator, row by row, the sum of the tile's 1024 masked weights; its three input
  blocks are the embeddings, reference rows 1024·t … 1024·t + 1023 and mask columns 1024·t … 1024·t + 1023, so the
  tile's clamped distances and mask bits are the specification's at columns 1024·t + q. The accumulator after tile n is
  therefore the specification's running sum over the first n + 1 tiles, and after the last tile the normalizer Z. The
  output block is written once, at the last tile, with the logarithm of the accumulator; it is the whole output
  array, so the array ends holding log Z.
-/
import proofs.«161532_j78700980731974_1_alg».proof.Proof.KI.LogZPieces
import proofs.«161532_j78700980731974_1_alg».proof.Proof.KI.LogZBlocks
import proofs.«161532_j78700980731974_1_alg».proof.Proof.KI.Payloads
import proofs.«161532_j78700980731974_1_alg».proof.Proof.TileSum
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## One tile step against the specification -/

/-- If the two row blocks are the embeddings and the tile's reference rows, the tile's clamped squared distance at
    (p, q) is the specification's at (p, 1024·t + q). -/
theorem distT_eq_dist (x : Cert.Spec.SE.Idx → EReal) (r : Cert.Spec.SR.Idx → EReal) (t : Fin 32)
    (x0 x1 : Vec Ideal S1024x128 .f32)
    (h0 : ∀ (p : Fin 1024) (k : Fin 128), x0 (ix2 p k) = x (ix2 p k))
    (h1 : ∀ (q : Fin 1024) (k : Fin 128), x1 (ix2 q k) = r (ix2 (Cert.Spec.col t q) k))
    (p q : Fin 1024) : distT x0 x1 p q = Cert.Spec.dist x r p (Cert.Spec.col t q) := by
  unfold distT Cert.Spec.dist Cert.Spec.sqE Cert.Spec.sqR Cert.Spec.cross
  simp only [h0, h1]

/-- One tile step at row p: the accumulator plus the sum of the specification's weights over the tile's columns. -/
theorem tileStep_apply (x : Cert.Spec.SE.Idx → EReal) (r : Cert.Spec.SR.Idx → EReal) (w : Cert.Spec.SM.Idx → BitVec 32)
    (t : Fin 32) (x0 x1 : Vec Ideal S1024x128 .f32) (x2 : Vec Ideal S1024x1024 .i32)
    (h0 : ∀ (p : Fin 1024) (k : Fin 128), x0 (ix2 p k) = x (ix2 p k))
    (h1 : ∀ (q : Fin 1024) (k : Fin 128), x1 (ix2 q k) = r (ix2 (Cert.Spec.col t q) k))
    (h2 : ∀ (p q : Fin 1024), x2 (ix2 p q) = w (ix2 p (Cert.Spec.col t q)))
    (xs : Vec Ideal S1024x1 .f32) (p : Fin 1024) :
    k0_pay1 (F := Ideal) (k0_pay4 x0 x1 x2 xs) (ix2 p (0 : Fin 1))
      = xs (ix2 p (0 : Fin 1)) + ∑ q : Fin 1024, Cert.Spec.weight x r w p (Cert.Spec.col t q) := by
  refine (k0_pay1_apply (k0_pay4 x0 x1 x2 xs) (ix2 p (0 : Fin 1))).trans ((k0_pay4_apply x0 x1 x2 xs p).trans ?_)
  refine congrArg (xs (ix2 p (0 : Fin 1)) + ·) (Finset.sum_congr rfl fun q _ => ?_)
  unfold Cert.Spec.weight
  rw [h2 p q, distT_eq_dist x r t x0 x1 h0 h1 p q]

variable (V : (c : Dev nD) → (b : Ref sig .tc) → Buf (Elt Ideal) ((c : Thread nD τ).loc b))

/-! ## The accumulator after each tile -/

/-- The running sum depends on the tile's number only. -/
theorem accSeq_congr (g : Fin 32 → EReal) (n m : ℕ) (hn : n < 32) (hm : m < 32) (e : n = m) :
    Cert.Spec.accSeq g n hn = Cert.Spec.accSeq g m hm := by
  subst e; rfl

/-- The accumulator after tile n, row p: the specification's running sum of the tiles' weight sums. -/
theorem acc_at (c : Dev nD) : ∀ (n : ℕ) (hn : n < cfg0.N) (p : Fin 1024),
    (stateAt (F := Ideal) V c n hn).2 (ix2 p (0 : Fin 1))
      = Cert.Spec.accSeq (fun t => ∑ q : Fin 1024, Cert.Spec.weight (V c main_arg0) (V c main_arg1) (V c main_arg2) p (Cert.Spec.col t q))
          n (lt_of_lt_of_eq hn N_0)
  | 0, hn, p => by
    rw [show stateAt V c 0 hn = _ from stateAt_first V c ⟨0, hn⟩ rfl]
    dsimp only
    rw [accFirst_eq]
    refine (tileStep_apply (V c main_arg0) (V c main_arg1) (V c main_arg2) ⟨0, lt_of_lt_of_eq hn N_0⟩ (iblk0 V c 0 ⟨0, hn⟩) (iblk0 V c 1 ⟨0, hn⟩) (iblk0 V c 2 ⟨0, hn⟩)
      (iblk0_0_apply V c ⟨0, hn⟩) (iblk0_1_apply V c ⟨0, hn⟩) (iblk0_2_apply V c ⟨0, hn⟩) (k0_pay3 (F := Ideal)) p).trans ?_
    rw [k0_pay3_apply]
    rfl
  | n + 1, hn, p => by
    have ih := acc_at c n (Nat.lt_of_succ_lt hn) p
    by_cases hl : n + 1 = 31
    · rw [show stateAt V c (n + 1) hn = _ from stateAt_last V c ⟨n + 1, hn⟩ (Nat.succ_ne_zero n) hl]
      dsimp only
      rw [accLast_eq]
      refine (tileStep_apply (V c main_arg0) (V c main_arg1) (V c main_arg2) ⟨n + 1, lt_of_lt_of_eq hn N_0⟩ (iblk0 V c 0 ⟨n + 1, hn⟩) (iblk0 V c 1 ⟨n + 1, hn⟩) (iblk0 V c 2 ⟨n + 1, hn⟩)
        (iblk0_0_apply V c ⟨n + 1, hn⟩) (iblk0_1_apply V c ⟨n + 1, hn⟩) (iblk0_2_apply V c ⟨n + 1, hn⟩) _ p).trans ?_
      show (stateAt V c n (Nat.lt_of_succ_lt hn)).2 (ix2 p (0 : Fin 1)) + _ = _
      rw [ih]
      rfl
    · rw [show stateAt V c (n + 1) hn = _ from stateAt_mid V c ⟨n + 1, hn⟩ (Nat.succ_ne_zero n) hl]
      dsimp only
      rw [accMid_eq]
      refine (tileStep_apply (V c main_arg0) (V c main_arg1) (V c main_arg2) ⟨n + 1, lt_of_lt_of_eq hn N_0⟩ (iblk0 V c 0 ⟨n + 1, hn⟩) (iblk0 V c 1 ⟨n + 1, hn⟩) (iblk0 V c 2 ⟨n + 1, hn⟩)
        (iblk0_0_apply V c ⟨n + 1, hn⟩) (iblk0_1_apply V c ⟨n + 1, hn⟩) (iblk0_2_apply V c ⟨n + 1, hn⟩) _ p).trans ?_
      show (stateAt V c n (Nat.lt_of_succ_lt hn)).2 (ix2 p (0 : Fin 1)) + _ = _
      rw [ih]
      rfl

/-- At the last tile the output block holds the logarithm of the accumulator. -/
theorem stateAt_last_fst (c : Dev nD) (t : Fin cfg0.N) (h0 : ¬t.val = 0) (h1 : t.val = 31) :
    (stateAt V c t.val t.isLt).1 = k0_pay2 (stateAt V c t.val t.isLt).2 := by
  rw [stateAt_last V c t h0 h1]
  dsimp only
  rw [outLast_eq, accLast_eq]

/-! ## The array of log-normalizers after the region -/

/-- The output's block index is (0, 0) at every point: its block is the whole array. -/
theorem index0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- A buffer's entry read through the output's block is the buffer's entry where the block's entry sits. -/
theorem read_blk0_3 (t : Fin cfg0.N) (G : Cert.Spec.SZ.Idx → EReal) (j : S1024x1.Idx) :
    ((cfg0.win 3).blk t).view.read (Elt Ideal) G j = G (((cfg0.win 3).blk t).view.emb j) := rfl

/-- The log-normalizer column at an index of row p. -/
theorem logZ_at (x : Cert.Spec.SE.Idx → EReal) (r : Cert.Spec.SR.Idx → EReal) (w : Cert.Spec.SM.Idx → BitVec 32)
    (i : Cert.Spec.SZ.Idx) (p : Fin 1024) (hp : (i 0).val = p.val) :
    Cert.Spec.logZ x r w i = Ideal.log (Cert.Spec.Z x r w p) := by
  have e : (i 0 : Fin 1024) = p := Fin.ext hp
  show Ideal.log (Cert.Spec.Z x r w (i 0)) = _
  exact congrArg (fun n : Fin 1024 => Ideal.log (Cert.Spec.Z x r w n)) e

/-- What the last tile writes back is the array of log-normalizers. -/
theorem flushed0_3 (c : Dev nD) (t : Fin cfg0.N) (hf : (cfg0.win 3).flush t = true) :
    (dat0 (F := Ideal) V c).flushed 3 t
      = ((cfg0.win 3).blk t).view.read (Elt Ideal) (Cert.Spec.logZ (V c main_arg0) (V c main_arg1) (V c main_arg2)) := by
  have hN : cfg0.N = 32 := N_0
  have h31 : t.val = 31 := by have := (flush0_3 t).mp hf; have := t.isLt; omega
  obtain ⟨a0, a1⟩ := index0_3 t
  show (cfg0.win 3).cut (grid0.coords t) ((dat0 V c).after 3 t) = _
  rw [after0_3, stateAt_last_fst V c t (by omega) h31]
  funext j
  obtain ⟨p, u, rfl⟩ : ∃ (p : Fin 1024) (u : Fin 1), j = ix2 p u := ⟨j 0, j 1, eq_ix2 j⟩
  obtain rfl : u = 0 := Subsingleton.elim _ _
  refine Eq.trans ?_ (read_blk0_3 t (Cert.Spec.logZ (V c main_arg0) (V c main_arg1) (V c main_arg2)) (ix2 p (0 : Fin 1))).symm
  refine Eq.trans ?_ (logZ_at (V c main_arg0) (V c main_arg1) (V c main_arg2) (((cfg0.win 3).blk t).view.emb (ix2 p (0 : Fin 1))) p
    (by show win0_3.index t (0 : Fin 2) * 1024 + 1 * p.val = p.val; omega)).symm
  show k0_pay2 (stateAt V c t.val t.isLt).2 (ix2 p (0 : Fin 1)) = _
  refine (k0_pay2_apply (stateAt V c t.val t.isLt).2 (ix2 p (0 : Fin 1))).trans (congrArg Ideal.log ?_)
  rw [acc_at V c t.val t.isLt p]
  refine (accSeq_congr _ t.val 31 _ (by decide) h31).trans ?_
  exact (Cert.Spec.Z_tiles (V c main_arg0) (V c main_arg1) (V c main_arg2) p).symm

/-- Every index of the output array is in the last tile's block. -/
theorem cover0_3 (i : S1024x1.Idx) :
    ∃ t : Fin cfg0.N, (cfg0.win 3).flush t = true ∧ i ∈ ((cfg0.win 3).blk t).view.set := by
  have hN : cfg0.N = 32 := N_0
  have hi0 : (i 0).val < 1024 := (i 0).isLt
  have hi1 : (i 1).val < 1 := (i 1).isLt
  let t : Fin cfg0.N := ⟨31, by rw [hN]; decide⟩
  obtain ⟨a0, a1⟩ := index0_3 t
  refine ⟨t, (flush0_3 t).mpr rfl, ?_⟩
  show i ∈ ((View.whole main_v0).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1 ≤ (i 1).val ∧ (i 1).val < win0_3.index t (1 : Fin 2) * 1 + 1; omega

/-- After the region the output array holds the specification's log-normalizers of the three argument arrays. -/
theorem logz_final (c : Dev nD) :
    (dat0 (F := Ideal) V c).arrAt 3 cfg0.N = Cert.Spec.logZ (V c main_arg0) (V c main_arg1) (V c main_arg2) :=
  (dat0 (F := Ideal) V c).arrAt_eq_of_cover 3 (Cert.Spec.logZ (V c main_arg0) (V c main_arg1) (V c main_arg2))
    (fun t hf => flushed0_3 V c t hf) cover0_3

end Cert.KernelIdeal.Hand

end
-- ==== Proof.RefSide.lean ====
/-
  The reference program's result, read at an index, is the shared specification `Cert.Spec.out` of its three arguments.

  At an index (n, j) the reference computes, in this order:
    |x_n|²           a row sum of squares "0 + Σ_k x(n,k)·x(n,k)", broadcast along the columns;
    |r_j|²           the same for the reference rows, broadcast along the rows;
    ⟨x_n, r_j⟩       the contraction of the two arrays over their second axes;
    d(n, j)          max (|x_n|² + |r_j|² − 2·⟨x_n, r_j⟩) 0;
    keep(n, j)       the bit not (w(n, j) ≠ 0), which is the bit "w(n, j) = 0";
    Z(n)             "0 + Σ_j" of exp (−d(n, j)) where keep, else 0;
    out(n, j)        −d(n, j) − log Z(n) where keep, else −∞.
  Each line is the specification's, once the literal zero is read as the extended real 0 and the composed index
  functions of the generated stage lemmas are identified with the coordinate constructor `ix2`.
-/
import proofs.«161532_j78700980731974_1_alg».proof.Defs
import proofs.«161532_j78700980731974_1_alg».proof.Proof.Gen.ReferenceIdeal.Read
import proofs.«161532_j78700980731974_1_alg».proof.Proof.Spec

noncomputable section

open scoped BigOperators

namespace Cert.RefSide

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-- The reference's mask bit `not (w ≠ 0)` at an index is the bit "the mask word there is zero". -/
theorem keep_eq (w : (⟨S1024x32768, .i32⟩ : BufTy).Contents (Elt Ideal)) (i : S1024x32768.Idx) :
    val_main_v17 (F := Ideal) w i = Cert.Spec.keepBit (w i) := by
  rw [val_main_v17_apply, val_main_v16_apply, val_main_v15_apply, val_main_v14_apply, val_main_c_apply]
  show ~~~(BitVec.ofBool (w i != 0#32)) = if w i = 0#32 then 1#1 else 0#1
  by_cases h : w i = 0#32
  · rw [if_pos h, h]; decide
  · rw [if_neg h, show (w i != 0#32) = true from bne_iff_ne.mpr h]; decide

/-- The clamped squared distance: the reference's relu stage at (n, j) is `dist x r n j`. -/
theorem dist_eq (x : (⟨S1024x128, .f32⟩ : BufTy).Contents (Elt Ideal)) (r : (⟨S32768x128, .f32⟩ : BufTy).Contents (Elt Ideal))
    (n : Fin 1024) (j : Fin 32768) :
    val_main_v13 (F := Ideal) x r (ix2 n j) = Cert.Spec.dist x r n j := by
  have e1 : ∀ k : Fin 128, idx_main_v1 (idx_main_v2 (idx_main_v7 (ix2 n j))) k = ix2 n k := fun k =>
    funext fun a => Fin.ext (by match a with | ⟨0, _⟩ => rfl | ⟨1, _⟩ => rfl)
  have e4 : ∀ k : Fin 128, idx_main_v4 (idx_main_v5 (idx_main_v8 (ix2 n j))) k = ix2 j k := fun k =>
    funext fun a => Fin.ext (by match a with | ⟨0, _⟩ => rfl | ⟨1, _⟩ => rfl)
  have el : ∀ k : Fin 128, lidx_main_v6 (ix2 n j) k = ix2 n k := fun k =>
    funext fun a => Fin.ext (by match a with | ⟨0, _⟩ => rfl | ⟨1, _⟩ => rfl)
  have er : ∀ k : Fin 128, ridx_main_v6 (ix2 n j) k = ix2 j k := fun k =>
    funext fun a => Fin.ext (by match a with | ⟨0, _⟩ => rfl | ⟨1, _⟩ => rfl)
  rw [val_main_v13_apply, val_main_v12_apply, val_main_v9_apply, val_main_v7_apply, val_main_v2_apply, val_main_v1_apply,
    val_main_v8_apply, val_main_v5_apply, val_main_v4_apply, val_main_v11_apply, val_main_v10_apply, val_main_v6_apply,
    val_main_call0_v0_apply]
  simp only [e1, e4, el, er, val_main_v0_apply, val_main_v3_apply, val_main_cst_apply, val_main_cst_0_apply,
    val_main_cst_1_apply, val_main_call0_cst_apply, Ideal.ofBits_def, Ideal.ofBits_zero_f32, zero_add, Ideal.addf_def,
    Ideal.subf_def, Ideal.mulf_def, Ideal.maximumf_def]
  rfl

/-- The masked Gaussian weight: the reference's first `where` at (n, j) is `weight x r w n j`. -/
theorem weight_eq (x : (⟨S1024x128, .f32⟩ : BufTy).Contents (Elt Ideal)) (r : (⟨S32768x128, .f32⟩ : BufTy).Contents (Elt Ideal))
    (w : (⟨S1024x32768, .i32⟩ : BufTy).Contents (Elt Ideal)) (n : Fin 1024) (j : Fin 32768) :
    val_main_v20 (F := Ideal) x r w (ix2 n j) = Cert.Spec.weight x r w n j := by
  rw [val_main_v20_apply, keep_eq, val_main_v19_apply, val_main_v18_apply, dist_eq, val_main_call1_v1_apply,
    val_main_call1_v0_apply, val_main_cst_2_apply]
  simp only [Ideal.hostUnary_exp_def, Ideal.hostNegf_def, Ideal.negf_def, Ideal.ofBits_def, Ideal.ofBits_zero_f32]
  rfl

/-- The normalizer: the reference's row sum of the weights, read where the last broadcast reads it, is `Z x r w n`. -/
theorem Z_eq (x : (⟨S1024x128, .f32⟩ : BufTy).Contents (Elt Ideal)) (r : (⟨S32768x128, .f32⟩ : BufTy).Contents (Elt Ideal))
    (w : (⟨S1024x32768, .i32⟩ : BufTy).Contents (Elt Ideal)) (n : Fin 1024) (j : Fin 32768) :
    val_main_v22 (F := Ideal) x r w (idx_main_v25 (ix2 n j)) = Cert.Spec.Z x r w n := by
  have e : ∀ k : Fin 32768, idx_main_v21 (idx_main_v22 (idx_main_v25 (ix2 n j))) k = ix2 n k := fun k =>
    funext fun a => Fin.ext (by match a with | ⟨0, _⟩ => rfl | ⟨1, _⟩ => rfl)
  rw [val_main_v22_apply, val_main_v21_apply]
  simp only [e, weight_eq, val_main_cst_3_apply, Ideal.ofBits_def, Ideal.ofBits_zero_f32, zero_add]
  rfl

/-- The reference's result is the specification's masked log-probabilities. -/
theorem result_eq (x : (⟨S1024x128, .f32⟩ : BufTy).Contents (Elt Ideal)) (r : (⟨S32768x128, .f32⟩ : BufTy).Contents (Elt Ideal))
    (w : (⟨S1024x32768, .i32⟩ : BufTy).Contents (Elt Ideal)) :
    val_main_v27 (F := Ideal) x r w = Cert.Spec.out x r w := by
  funext i
  obtain ⟨n, j, rfl⟩ : ∃ (n : Fin 1024) (j : Fin 32768), i = ix2 n j := ⟨i 0, i 1, eq_ix2 i⟩
  rw [val_main_v27_apply, keep_eq, val_main_v26_apply, val_main_v23_apply, dist_eq, val_main_v25_apply, val_main_v24_apply,
    Z_eq, val_main_call2_v1_apply, val_main_call2_v0_apply, val_main_cst_4_apply]
  simp only [Ideal.hostUnary_log_def, Ideal.hostNegf_def, Ideal.negf_def, Ideal.subf_def, Ideal.ofBits_def]
  rfl

/-- The reference's run, with its result stated as the specification of the arguments' launch contents: on every device,
    from any memory with zero counters, every weakly fair execution terminates with the result buffer at
    `Cert.Spec.out` of the three arguments and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun s => ∀ c : Dev Cert.ReferenceIdeal.nD,
        s.2.mem ((c.tc : Thread Cert.ReferenceIdeal.nD Cert.ReferenceIdeal.τ).loc Cert.ReferenceIdeal.main_v27)
          = Cert.Spec.out (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
        ∧ s.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ s.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ s.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)) :=
  (θ_run Cert.ReferenceIdeal.defs _ _).mono
    (fun _ h c => ⟨(h c).1.trans ((val_main_v27_eq (F := Ideal) _ _ _).trans (result_eq _ _ _)), (h c).2⟩)
    (Cert.ReferenceIdeal.Value.run (F := Ideal) m ρ)

end Cert.RefSide

end
-- ==== Proof.lean ====
/-
  The certificate's five claims, assembled.

  Both printed programs run two kernel regions back to back: pass 1 accumulates, tile by tile, the row sums of the masked
  Gaussian weights in a scratch column and writes their logarithm; pass 2 writes the masked log-probabilities from that
  column. Each region's frame and contents are proved in its own modules (Proof/K/…, Proof/KI/…); the reference's run
  is read back from its host operations (Proof/RefSide.lean). At the ideal instance the kernel's result and the
  reference's are the same function `Cert.Spec.out` of the arguments: the kernel's tile-by-tile accumulation of the
  normalizer is the reference's single sum over all 32768 columns (addition of extended reals is commutative and
  associative), and everything else is the same expression position by position. The ideal pass rewrote nothing, so the
  idealization is the program's own text and `preserves` has nothing to state.
-/
import proofs.«161532_j78700980731974_1_alg».proof.Defs
import proofs.«161532_j78700980731974_1_alg».proof.Proof.Gen.Kernel
import proofs.«161532_j78700980731974_1_alg».proof.Proof.Gen.KernelIdeal
import proofs.«161532_j78700980731974_1_alg».proof.Proof.Gen.ReferenceIdeal
import proofs.«161532_j78700980731974_1_alg».proof.Proof.Gen.Pre_finite_inputs
import proofs.«161532_j78700980731974_1_alg».proof.Proof.K.Run
import proofs.«161532_j78700980731974_1_alg».proof.Proof.KI.Run
import proofs.«161532_j78700980731974_1_alg».proof.Proof.KI.OutValue
import proofs.«161532_j78700980731974_1_alg».proof.Proof.KI.LogZValue
import proofs.«161532_j78700980731974_1_alg».proof.Proof.RefSide

noncomputable section

namespace Cert.Proof

open Idealize.ShloMosaic Idealize.ShloMosaic.TcCoe Idealize.SL.Sem

/-- The word-level program runs to the end and leaves its three arguments as launched. -/
theorem frame_k : Cert.frame_Kernel := fun m ρ _ => Cert.Kernel.Hand.frame (F := Bits) m ρ

/-- So does the program read at the ideal instance. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.RefSide.run m ρ)

/-- The ideal pass rewrote no operation. -/
theorem preserves : Cert.preserves_Kernel_KernelIdeal := trivial

/-- The kernel's result — pass 2's write-backs, computed from the column pass 1's write-back left — is
    `outOf x r w (logZ x r w) = out x r w`; the reference's result is `out x r w` of arguments that agree. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.Hand.run_value (F := Ideal) m ρ)
    rw [Cert.KernelIdeal.Hand.out_final (Cert.KernelIdeal.Hand.E1 m) c, Cert.KernelIdeal.Hand.E1_arg0, Cert.KernelIdeal.Hand.E1_arg1,
      Cert.KernelIdeal.Hand.E1_arg2, Cert.KernelIdeal.Hand.E1_v0, Cert.KernelIdeal.Hand.logz_final (Cert.KernelIdeal.Hand.E0 m) c]
    rfl
  · refine (θ_run Cert.ReferenceIdeal.defs _ _).mono (fun _ h c => ⟨?_, (h c).2⟩) (Cert.RefSide.run m' ρ')
    rw [(h c).1, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
